-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x8192x3 : Shape := ⟨3, ![8, 8192, 3]⟩
abbrev S8 : Shape := ⟨1, ![8]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x8192x3 : S_.BroadcastsInDim S8x8192x3 (![] : Fin 0 → Fin S8x8192x3.rank)
  reducesTo_S8x8192x3_S_d0_1_2 : S8x8192x3.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x2048x3 .f32) (main_arg1 : FVec F S8x8192x3 .f32) (main_arg2 : FVec F S8 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x8192x3 .f32 := Host.absf main_arg1
  let main_cst_0 : FVec F S_ .f32 := constant S_ .f32 0x7F800000#32
  let main_v5 : FVec F S8x8192x3 .f32 := broadcastInDim S8x8192x3 ![] bcast_S_S8x8192x3 main_cst_0
  let main_v6 : IVec S8x8192x3 1 := cmpf .olt main_v4 main_v5
  let main_c_1 : IVec S_ 1 := constantI S_ 1 1#1
  let main_v7 : IVec S_ 1 := (fun x v => Host.reduce IntOp.andi x v reducesTo_S8x8192x3_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x2048x3 : Shape := ⟨3, ![8, 2048, 3]⟩
abbrev S8x8192x3 : Shape := ⟨3, ![8, 8192, 3]⟩
abbrev S8 : Shape := ⟨1, ![8]⟩
abbrev S8x1x2048 : Shape := ⟨3, ![8, 1, 2048]⟩
abbrev S1x2048x3 : Shape := ⟨3, ![1, 2048, 3]⟩
abbrev S1x512x3 : Shape := ⟨3, ![1, 512, 3]⟩
abbrev S1x1x2048 : Shape := ⟨3, ![1, 1, 2048]⟩
abbrev S2048x128 : Shape := ⟨2, ![2048, 128]⟩
abbrev S2048x3 : Shape := ⟨2, ![2048, 3]⟩
abbrev S512x3 : Shape := ⟨2, ![512, 3]⟩
abbrev S2048x1 : Shape := ⟨2, ![2048, 1]⟩
abbrev S512x1 : Shape := ⟨2, ![512, 1]⟩
abbrev S512 : Shape := ⟨1, ![512]⟩
abbrev S1x512 : Shape := ⟨2, ![1, 512]⟩
abbrev S2048x512 : Shape := ⟨2, ![2048, 512]⟩
abbrev S2048x4x128 : Shape := ⟨3, ![2048, 4, 128]⟩
abbrev S2048 : Shape := ⟨1, ![2048]⟩
abbrev S8x2048 : Shape := ⟨2, ![8, 2048]⟩
abbrev S_ : Shape := ⟨0, ![]⟩
abbrev S8x16x128x3 : Shape := ⟨4, ![8, 16, 128, 3]⟩
abbrev S8x16x128x1 : Shape := ⟨4, ![8, 16, 128, 1]⟩
abbrev S8x16x128 : Shape := ⟨3, ![8, 16, 128]⟩
abbrev S8x1x16 : Shape := ⟨3, ![8, 1, 16]⟩
abbrev S1x16x128 : Shape := ⟨3, ![1, 16, 128]⟩
abbrev S1x1x16 : Shape := ⟨3, ![1, 1, 16]⟩
abbrev S16x128 : Shape := ⟨2, ![16, 128]⟩
abbrev S16x1x128 : Shape := ⟨3, ![16, 1, 128]⟩
abbrev S16x128x1 : Shape := ⟨3, ![16, 128, 1]⟩
abbrev S16x128x128 : Shape := ⟨3, ![16, 128, 128]⟩
abbrev S16 : Shape := ⟨1, ![16]⟩
abbrev S8x16 : Shape := ⟨2, ![8, 16]⟩

abbrev nBuf : Space → Nat
  | .hbm => 34
  | .vmem => 15
  | .smem => 0
  | _ => 0

abbrev bufTy : (tb : Table) → Fin (tcTables nBuf tb) → BufTy
  | .hbm, ⟨0, _⟩ => ⟨S8x2048x3, .f32⟩
  | .hbm, ⟨1, _⟩ => ⟨S8x8192x3, .f32⟩
  | .hbm, ⟨2, _⟩ => ⟨S8, .f32⟩
  | .hbm, ⟨3, _⟩ => ⟨S8x1x2048, .f32⟩
  | .hbm, ⟨4, _⟩ => ⟨S8x2048, .f32⟩
  | .hbm, ⟨5, _⟩ => ⟨S_, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x16x128x3, .f32⟩
  | .hbm, ⟨16, _⟩ => ⟨S8x16x128x1, .f32⟩
  | .hbm, ⟨17, _⟩ => ⟨S8x16x128, .f32⟩
  | .hbm, ⟨18, _⟩ => ⟨S8x16x128x1, .f32⟩
  | .hbm, ⟨19, _⟩ => ⟨S8x16x128, .f32⟩
  | .hbm, ⟨20, _⟩ => ⟨S8x16x128x1, .f32⟩
  | .hbm, ⟨21, _⟩ => ⟨S8x16x128, .f32⟩
  | .hbm, ⟨22, _⟩ => ⟨S8x1x16, .f32⟩
  | .hbm, ⟨23, _⟩ => ⟨S8x16, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S1x1x2048, .f32⟩
  | .local _ .vmem, ⟨5, _⟩ => ⟨S1x1x2048, .f32⟩
  | .local _ .vmem, ⟨6, _⟩ => ⟨S2048x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x1x16, .f32⟩
  | .local _ .vmem, ⟨14, _⟩ => ⟨S1x1x16, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_10 : BitVec 32 := 0#32
  let v42 : BitVec 1 := Scalar.cmpi .ne v41 c0_i32_10
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  slices_S512x3_o0_0_S512x1 : S512x3.Slices ![0, 0] S512x1
  shapeCasts_S512x1_S512 : S512x1.ShapeCasts S512
  shapeCasts_S512_S1x512 : S512.ShapeCasts S1x512
  slices_S512x3_o0_1_S512x1 : S512x3.Slices ![0, 1] S512x1
  slices_S512x3_o0_2_S512x1 : S512x3.Slices ![0, 2] S512x1
  broadcasts_S2048x1_S2048x512 : S2048x1.Broadcasts S2048x512
  broadcasts_S1x512_S2048x512 : S1x512.Broadcasts S2048x512
  shapeCasts_S2048x512_S2048x4x128 : S2048x512.ShapeCasts S2048x4x128
  reduces_S2048x4x128_S2048x128 : S2048x4x128.Reduces [1] S2048x128
  reduces_S2048x128_S2048 : S2048x128.Reduces [1] S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  shapeCasts_S8x1x2048_S8x2048 : S8x1x2048.ShapeCasts S8x2048
  reducesTo_S8x2048_S8_d1 : S8x2048.ReducesTo [1] S8
  h_S_ : 0 < S_.numel
  bcast_S_S8 : S_.BroadcastsInDim S8 (![] : Fin 0 → Fin S8.rank)
  reducesTo_S8_S_d0 : S8.ReducesTo [0] S_
  shapeCasts_S8x2048x3_S8x16x128x3 : S8x2048x3.ShapeCasts S8x16x128x3
  slices_S8x16x128x3_S8x16x128x1_0_0_0_0 : S8x16x128x3.Slices ![0, 0, 0, 0] S8x16x128x1
  shapeCasts_S8x16x128x1_S8x16x128 : S8x16x128x1.ShapeCasts S8x16x128
  slices_S8x16x128x3_S8x16x128x1_0_0_0_1 : S8x16x128x3.Slices ![0, 0, 0, 1] S8x16x128x1
  slices_S8x16x128x3_S8x16x128x1_0_0_0_2 : S8x16x128x3.Slices ![0, 0, 0, 2] S8x16x128x1
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S16x1x128 : S16x128.ShapeCasts S16x1x128
  shapeCasts_S16x128_S16x128x1 : S16x128.ShapeCasts S16x128x1
  broadcasts_S16x1x128_S16x128x128 : S16x1x128.Broadcasts S16x128x128
  broadcasts_S16x128x1_S16x128x128 : S16x128x1.Broadcasts S16x128x128
  reduces_S16x128x128_S16x128 : S16x128x128.Reduces [2] S16x128
  reduces_S16x128_S16 : S16x128.Reduces [1] S16
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  shapeCasts_S16_S1x1x16 : S16.ShapeCasts S1x1x16
  shapeCasts_S8x1x16_S8x16 : S8x1x16.ShapeCasts S8x16
  reducesTo_S8x16_S8_d1 : S8x16.ReducesTo [1] S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x2048x3.size a
  hwx0_0 : ∀ i : grid0.Coords, EltTy.bits .f32 = 32 ∨ (Rect.block (s := S8x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x8192x3.size a
  hwx0_1 : ∀ i : grid0.Coords, EltTy.bits .f32 = 32 ∨ (Rect.block (s := S8x8192x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128.size a ≤ S8x16x128.size a
  hwx1_0 : ∀ i : grid1.Coords, EltTy.bits .f32 = 32 ∨ (Rect.block (s := S8x16x128) S1x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x128.size a ≤ S8x16x128.size a
  hwx1_1 : ∀ i : grid1.Coords, EltTy.bits .f32 = 32 ∨ (Rect.block (s := S8x16x128) S1x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x128.size a ≤ S8x16x128.size a
  hwx1_2 : ∀ i : grid1.Coords, EltTy.bits .f32 = 32 ∨ (Rect.block (s := S8x16x128) S1x16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S8x1x16.size a
  hwx1_3 : ∀ i : grid1.Coords, EltTy.bits .f32 = 32 ∨ (Rect.block (s := S8x1x16) S1x1x16.size (cc1_transform_3 i) (hinb1_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v10) S1x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x3 : Shape := ⟨3, ![8, 2048, 3]⟩
abbrev S8x8192x3 : Shape := ⟨3, ![8, 8192, 3]⟩
abbrev S8 : Shape := ⟨1, ![8]⟩
abbrev S_ : Shape := ⟨0, ![]⟩
abbrev S8x2048 : Shape := ⟨2, ![8, 2048]⟩
abbrev S8x8192 : Shape := ⟨2, ![8, 8192]⟩
abbrev S8x2048x8192 : Shape := ⟨3, ![8, 2048, 8192]⟩
abbrev S8x2048x1 : Shape := ⟨3, ![8, 2048, 1]⟩
abbrev S8x1x8192 : Shape := ⟨3, ![8, 1, 8192]⟩
abbrev S8x16x128x3 : Shape := ⟨4, ![8, 16, 128, 3]⟩
abbrev S8x16x1x128x3 : Shape := ⟨5, ![8, 16, 1, 128, 3]⟩
abbrev S8x16x128x1x3 : Shape := ⟨5, ![8, 16, 128, 1, 3]⟩
abbrev S8x16x128x128x3 : Shape := ⟨5, ![8, 16, 128, 128, 3]⟩
abbrev S8x16x128x128 : Shape := ⟨4, ![8, 16, 128, 128]⟩
abbrev S8x16x128 : Shape := ⟨3, ![8, 16, 128]⟩
abbrev S8x16 : Shape := ⟨2, ![8, 16]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x8192x3, .f32⟩
  | .hbm, ⟨2, _⟩ => ⟨S8, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x2048x8192, .f32⟩
  | .hbm, ⟨10, _⟩ => ⟨S8x2048x1, .f32⟩
  | .hbm, ⟨11, _⟩ => ⟨S8x1x8192, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S_, .f32⟩
  | .hbm, ⟨16, _⟩ => ⟨S8x2048x8192, .f32⟩
  | .hbm, ⟨17, _⟩ => ⟨S8x2048x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x16x128x3, .f32⟩
  | .hbm, ⟨35, _⟩ => ⟨S8x16x1x128x3, .f32⟩
  | .hbm, ⟨36, _⟩ => ⟨S8x16x128x1x3, .f32⟩
  | .hbm, ⟨37, _⟩ => ⟨S8x16x128x128x3, .f32⟩
  | .hbm, ⟨38, _⟩ => ⟨S8x16x128x128x3, .f32⟩
  | .hbm, ⟨39, _⟩ => ⟨S8x16x128x128x3, .f32⟩
  | .hbm, ⟨40, _⟩ => ⟨S_, .f32⟩
  | .hbm, ⟨41, _⟩ => ⟨S8x16x128x128x3, .f32⟩
  | .hbm, ⟨42, _⟩ => ⟨S8x16x128x128x3, .f32⟩
  | .hbm, ⟨43, _⟩ => ⟨S8x16x128x128x3, .f32⟩
  | .hbm, ⟨44, _⟩ => ⟨S_, .f32⟩
  | .hbm, ⟨45, _⟩ => ⟨S8x16x128x128, .f32⟩
  | .hbm, ⟨46, _⟩ => ⟨S8x16x128x128, .f32⟩
  | .hbm, ⟨47, _⟩ => ⟨S_, .f32⟩
  | .hbm, ⟨48, _⟩ => ⟨S8x16x128, .f32⟩
  | .hbm, ⟨49, _⟩ => ⟨S_, .f32⟩
  | .hbm, ⟨50, _⟩ => ⟨S8x16, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_cst_14 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  reducesTo_S8x8192x3_S8x8192_d2 : S8x8192x3.ReducesTo [2] S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  reducesTo_S8x2048x8192_S8x2048_d2 : S8x2048x8192.ReducesTo [2] S8x2048
  reducesTo_S8x2048_S8_d1 : S8x2048.ReducesTo [1] S8
  bcast_S_S8 : S_.BroadcastsInDim S8 (![] : Fin 0 → Fin S8.rank)
  reducesTo_S8_S_d0 : S8.ReducesTo [0] S_
  shapeCasts_S8x2048x3_S8x16x128x3 : S8x2048x3.ShapeCasts S8x16x128x3
  bcast_S8x16x128x3_S8x16x1x128x3_0_1_3_4 : S8x16x128x3.BroadcastsInDim S8x16x1x128x3 (![0, 1, 3, 4] : Fin 4 → Fin S8x16x1x128x3.rank)
  bcast_S8x16x128x3_S8x16x128x1x3_0_1_2_4 : S8x16x128x3.BroadcastsInDim S8x16x128x1x3 (![0, 1, 2, 4] : Fin 4 → Fin S8x16x128x1x3.rank)
  bcast_S8x16x1x128x3_S8x16x128x128x3_0_1_2_3_4 : S8x16x1x128x3.BroadcastsInDim S8x16x128x128x3 (![0, 1, 2, 3, 4] : Fin 5 → Fin S8x16x128x128x3.rank)
  bcast_S8x16x128x1x3_S8x16x128x128x3_0_1_2_3_4 : S8x16x128x1x3.BroadcastsInDim S8x16x128x128x3 (![0, 1, 2, 3, 4] : Fin 5 → Fin S8x16x128x128x3.rank)
  bcast_S_S8x16x128x128x3 : S_.BroadcastsInDim S8x16x128x128x3 (![] : Fin 0 → Fin S8x16x128x128x3.rank)
  reducesTo_S8x16x128x128x3_S8x16x128x128_d4 : S8x16x128x128x3.ReducesTo [4] S8x16x128x128
  reducesTo_S8x16x128x128_S8x16x128_d2 : S8x16x128x128.ReducesTo [2] S8x16x128
  reducesTo_S8x16x128_S8x16_d2 : S8x16x128.ReducesTo [2] S8x16
  reducesTo_S8x16_S8_d1 : S8x16.ReducesTo [1] S8
  dot_S8x2048x3_S8x8192x3_S8x2048x8192_2_2_1_1_0_0_wf : DotDims.WF S8x2048x3 S8x8192x3 S8x2048x8192 [2] [2] [1] [1] [0] [0]

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf

class Facts : Prop extends Facts₀ where

variable [Facts]
-- ==== Proof.K.R0Shared.lean ====
/-
  The first region (the nearest-distance kernel), at any float instance and at any contents `V` of the buffers when the
  region is entered: what its three case runs and its accumulation share. The grid is 8 batches by 16 tiles of 512 ori
  points, the tile index innermost; point `t` is batch `t / 16`, tile `t % 16`. The adv block of a batch (window 0) is
  fetched when the batch changes, the ori tile (window 1) at every point, and the result's block (window 2, one number per
  adv point) is written back only at a batch's last tile: elsewhere the body stores nothing into it and the window is
  idle. Beside the windows the body holds a scratch of 2048 x 128 running minima, which it resets to +∞ at a batch's first
  tile (the body's first branch), lowers at every tile, and reduces along its lanes into the result at the last tile (the
  second branch). The branch conditions depend on the tile index only and are decided here over the 128 points.
-/
import proofs.«126610_j24790551233439_2_alg».proof.Proof.Gen.Kernel.Launch
import proofs.«126610_j24790551233439_2_alg».proof.Proof.Gen.Kernel.Skeleton
import proofs.«126610_j24790551233439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, its block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch's condition (the tile index is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch's condition (the tile index is 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a batch's first tile the result's window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle tile too. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a batch's last tile it is live: the body stores into it. -/
theorem liveAt0_2_C : ∀ t : Fin cfg0.N, ¬cond0_0 (grid0.coords t) → cond0_1 (grid0.coords t) → cfg0.idle 2 (grid0.coords t) = false := by decide +kernel

/-! ## The buffers the body is called with -/

/-- One buffer of the result's window, through which its contents are stated (the choice does not matter). -/
abbrev VO0_2 : View sig .tc .vmem S1x1x2048 .f32 := (Memref.whole cc0_stg2_0 : Memref sig .tc .vmem S1x1x2048 .f32).view
abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The scratch of running minima: a whole scoped buffer of the kernel's own. -/
abbrev scM0_0 : Memref sig .tc .vmem S2048x128 .f32 := Memref.whole cc0_scratch0
abbrev VS0_0 : View sig .tc .vmem S2048x128 .f32 := scM0_0.view

/-- The core's other scoped buffers (the second region's eight staging buffers), each whole at some contents: they ride
    through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the launch hands the region, with the scratch as a buffer owned at some contents beside the rest. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.Kernel.Fr

end
-- ==== Proof.K.R0RunA.lean ====
/-
  The nearest-distance kernel's body at a batch's FIRST tile (first branch taken, second not): it resets the scratch to +∞,
  loads the adv block and the ori tile, lowers the scratch by the tile's minima, and stores nothing into the result's
  buffer, which it hands back as it found it. The pieces the scratch ends with are the witness the run finds.
-/
import proofs.«126610_j24790551233439_2_alg».proof.Proof.K.R0Shared

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) :
    Σ' (L2 : List (View.Piece (Elt F) S1x1x2048 .f32)), { LS0 : List (View.Piece (Elt F) S2048x128 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨[], ?_, fun xi2 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R0RunB.lean ====
/-
  The nearest-distance kernel's body at a MIDDLE tile (neither branch taken): from the scratch at what the tile before
  left, it loads the adv block and the ori tile, lowers the scratch by the tile's minima, and stores nothing into the
  result's buffer, which it hands back as it found it. The pieces the scratch ends with are the witness the run finds.
-/
import proofs.«126610_j24790551233439_2_alg».proof.Proof.K.R0Shared

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) :
    Σ' (L2 : List (View.Piece (Elt F) S1x1x2048 .f32)), { LS0 : List (View.Piece (Elt F) S2048x128 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨[], ?_, fun xi2 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R0RunC.lean ====
/-
  The nearest-distance kernel's body at a batch's LAST tile (first branch not taken, second taken): from the scratch at
  what the tile before left, it loads the adv block and the ori tile, lowers the scratch by the tile's minima, then
  loads the scratch back and stores its lane-wise minima whole into the result's buffer. The pieces the scratch and the
  result's buffer end with are the witness the run finds.
-/
import proofs.«126610_j24790551233439_2_alg».proof.Proof.K.R0Shared

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) :
    Σ' (L2 : List (View.Piece (Elt F) S1x1x2048 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨?_, ?_, fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Region0.lean ====
/-
  The first region (the nearest-distance kernel): what the scratch of running minima and the result's buffer hold after
  each grid point, the region's proof data, and the body obligation, at any float instance and any entry contents `V`.
  After a batch's first tile the scratch holds that case's pieces read back; after every later tile the case's pieces
  over what the tile before left (`outsAt0`, by recursion on the point). The invariant between points carries the scratch
  at exactly those contents (`PhiS`), beside the core's other scoped buffers and the generator register, which the body
  never touches; before the first point and after the last the scratch's contents are forgotten.
-/
import proofs.«126610_j24790551233439_2_alg».proof.Proof.K.R0RunA
import proofs.«126610_j24790551233439_2_alg».proof.Proof.K.R0RunB
import proofs.«126610_j24790551233439_2_alg».proof.Proof.K.R0RunC

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-tile case stores nothing into the result's buffer: a placeholder nothing consults (the window is idle). -/
def out0_A_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) : Vec F S1x1x2048 .f32 :=
  VO0_2.read (Elt F) (VO0_2.writes (Elt F) VO0_2.junk (kernelRun0_A c i arg2 harg2 arg3 harg3 arg4 harg4 arg5 harg5 hc0 hc1 x0 x1).1)

/-- Its pieces for the scratch cover it. -/
theorem scover0_A_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What the first-tile case leaves in the scratch. -/
def sout0_A_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- A middle tile stores nothing into the result's buffer either. -/
def out0_B_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) : Vec F S1x1x2048 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- What a middle tile leaves in the scratch, over what the tile before left. -/
def sout0_B_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- The last tile's one store covers the result's block. -/
theorem cover0_C_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) (y : S1x1x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x2048.size (by sl_kernel_rfl) y

/-- What the last tile leaves in the result's buffer. -/
def out0_C_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) : Vec F S1x1x2048 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- What the last tile leaves in the scratch. -/
def sout0_C_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- THE ACCUMULATION: the result's buffer and the scratch after the body at position `n` — the case the tile index selects,
    run at the point's buffers and input blocks, the scratch (past a batch's first tile) at what position `n - 1` left. -/
def outsAt0 (c : Dev nD) : (n : ℕ) → n < cfg0.N → Vec F S1x1x2048 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a batch's first tile. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile: over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a batch's last tile: over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over; afterwards the scratch at what the point before left, the core's
    other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The region's proof data -/

/-- The arrays as the region finds them; after the body at point `t` each input's buffer at its block and the result's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the tile index says which case the point is in; the
    invariant hands the body the scratch at what the point before left (at anything at a batch's first tile) and takes it
    back at this point's contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by intro hz; rw [hz] at h0; exact h0 (Nat.zero_mod _)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Fr

end
-- ==== Proof.K.Region1.lean ====
/-
  The second region (the farthest-gap kernel), at any float instance and at any contents `V` of the buffers when the
  region is entered. Its grid has one point per batch; at a point the three coordinate arrays' blocks (one batch: 16
  clusters of 128 numbers each) are fetched, the body loads them whole, computes one number per cluster and stores the
  16 numbers whole into the result's block, which is written back at every point. The body reads no grid position and
  branches nowhere, so one run serves every point: what the result's buffer holds afterwards is the one store's value
  as a function of the three loaded blocks (`out1_3`).
-/
import proofs.«126610_j24790551233439_2_alg».proof.Proof.Gen.Kernel.Launch
import proofs.«126610_j24790551233439_2_alg».proof.Proof.Gen.Kernel.Skeleton
import proofs.«126610_j24790551233439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_in : Rect S1x16x128 := Rect.unit (s := S1x16x128) ![0, 0, 0] S1x16x128.size inb_S1x16x128_S1x16x128_0_0_0
abbrev r1_out : Rect S1x1x16 := Rect.unit (s := S1x1x16) ![0, 0, 0] S1x1x16.size inb_S1x1x16_S1x1x16_0_0_0

/-- The result's buffer after the body, from the three loaded blocks: its one store. -/
def out1_3 (x0 x1 x2 : Vec F S1x16x128 .f32) : Vec F S1x1x16 .f32 :=
  View.canon [⟨r1_out, k1_pay1 (View.ld x0 r1_in) (View.ld x1 r1_in) (View.ld x2 r1_in)⟩]

/-- The one store covers the block. -/
theorem cover1_3 (p0 : Vec F S1x1x16 .f32) (y : S1x1x16.Idx) :
    ∃ pc ∈ ([⟨r1_out, p0⟩] : List (View.Piece (Elt F) S1x1x16 .f32)), y ∈ pc.1.set :=
  View.cover_of_tiled [⟨r1_out, p0⟩] S1x1x16.size (by rfl) y

/-! ## The body's triple -/

set_option maxHeartbeats 1000000 in
/-- On whole buffers, the three inputs' at their contents and the result's at anything, the body runs to the continuation
    holding the inputs' as they were and the result's at `out1_3` of them. -/
theorem sound_kernel1 (c : Dev nD) (E : Set ℕ) (i : grid1.Coords) (arg1 : Memref sig .tc .vmem S1x16x128 .f32) (harg1 : arg1.IsWhole) (arg2 : Memref sig .tc .vmem S1x16x128 .f32) (harg2 : arg2.IsWhole)
    (arg3 : Memref sig .tc .vmem S1x16x128 .f32) (harg3 : arg3.IsWhole) (arg4 : Memref sig .tc .vmem S1x1x16 .f32) (harg4 : arg4.IsWhole)
    (x0 x1 x2 : Vec F S1x16x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__far_kernel i arg1 harg1 arg2 harg2 arg3 harg3 arg4 harg4) K := by
  simp only [cc1__far_kernel_eq_skeleton]; unfold cc1__far_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the result's at
    `out1_3` of the input blocks; the invariant between points the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The whole run of @main, at any float instance: the first region, a stretch of host operations, the second region, a
  last stretch of host operations. The buffers' contents at each boundary are a fold from the launch memory — a region
  leaves its arrays at what its write-backs make of them and every other buffer as it was; a host stretch applies its
  operations — and every weakly fair execution from any memory with zero counters terminates, nothing faulting, with every
  unscoped buffer at the last boundary's contents (`run_all`). The argument arrays read back through the fold are the
  launch contents (no region writes one, no host operation writes one): the frame.
-/
import proofs.«126610_j24790551233439_2_alg».proof.Proof.K.Region0
import proofs.«126610_j24790551233439_2_alg».proof.Proof.K.Region1
import proofs.«126610_j24790551233439_2_alg».proof.Proof.Gen.Kernel.Regions

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E0' : (c : Dev nD) → (b : Ref sig .tc) → Buf (Elt F) ((c : Thread nD τ).loc b) := fun c b => W1 m c b
theorem hF0 (c : Dev nD) (w : Fin cfg0.W) : (dat0 (E0 m) c).arrAt w cfg0.N = E0' m c (Pipeline.arrRef spec0 w) :=
  (W1_arr m c w).symm
theorem hrest0 (c : Dev nD) : ∀ b, b ∉ Finset.univ.image (Pipeline.arrRef spec0) → E0' m c b = E0 m c b :=
  fun b hb => W1_of_ne m c b fun w e => hb (Finset.mem_image.mpr ⟨w, Finset.mem_univ _, e⟩)

/-- After the first host stretch: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2' : (c : Dev nD) → (b : Ref sig .tc) → Buf (Elt F) ((c : Thread nD τ).loc b) := fun c b => W3 m c b
theorem hF1 (c : Dev nD) (w : Fin cfg1.W) : (dat1 (E2 m) c).arrAt w cfg1.N = E2' m c (Pipeline.arrRef spec1 w) :=
  (W3_arr m c w).symm
theorem hrest1 (c : Dev nD) : ∀ b, b ∉ Finset.univ.image (Pipeline.arrRef spec1) → E2' m c b = E2 m c b :=
  fun b hb => W3_of_ne m c b fun w e => hb (Finset.mem_image.mpr ⟨w, Finset.mem_univ _, e⟩)
/-- After the last host stretch: the end. -/
abbrev W4 : Dev nD → Valuation τ sig (Elt F) := fun c => StableHlo.after hostOps2 (W3 m c)

/-- A host stretch changes only the buffers its operations write. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 1).trans (((dat0 (E0 m) c).arrAt_in 1 rfl _).trans (A_eq0 (E0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl

/-! ## The proof data family and the thread state -/

/-- Every region's proof data, each at its entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer as launched, left at `W1`. Its arrays are
    split out of the unscoped buffers and put back at the exit contents; the generator register and the scoped rest go
    into the region's invariant (which carries the scratch between points) and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E0' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`; its invariant is
    the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E2' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Fr

end
-- ==== Proof.KI.R0Shared.lean ====
/-
  The first region (the nearest-distance kernel), at any float instance and at any contents `V` of the buffers when the
  region is entered: what its three case runs and its accumulation share. The grid is 8 batches by 16 tiles of 512 ori
  points, the tile index innermost; point `t` is batch `t / 16`, tile `t % 16`. The adv block of a batch (window 0) is
  fetched when the batch changes, the ori tile (window 1) at every point, and the result's block (window 2, one number per
  adv point) is written back only at a batch's last tile: elsewhere the body stores nothing into it and the window is
  idle. Beside the windows the body holds a scratch of 2048 x 128 running minima, which it resets to +∞ at a batch's first
  tile (the body's first branch), lowers at every tile, and reduces along its lanes into the result at the last tile (the
  second branch). The branch conditions depend on the tile index only and are decided here over the 128 points.
-/
import proofs.«126610_j24790551233439_2_alg».proof.Proof.Gen.KernelIdeal.Launch
import proofs.«126610_j24790551233439_2_alg».proof.Proof.Gen.KernelIdeal.Skeleton
import proofs.«126610_j24790551233439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, its block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch's condition (the tile index is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch's condition (the tile index is 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a batch's first tile the result's window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle tile too. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a batch's last tile it is live: the body stores into it. -/
theorem liveAt0_2_C : ∀ t : Fin cfg0.N, ¬cond0_0 (grid0.coords t) → cond0_1 (grid0.coords t) → cfg0.idle 2 (grid0.coords t) = false := by decide +kernel

/-! ## The buffers the body is called with -/

/-- One buffer of the result's window, through which its contents are stated (the choice does not matter). -/
abbrev VO0_2 : View sig .tc .vmem S1x1x2048 .f32 := (Memref.whole cc0_stg2_0 : Memref sig .tc .vmem S1x1x2048 .f32).view
abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The scratch of running minima: a whole scoped buffer of the kernel's own. -/
abbrev scM0_0 : Memref sig .tc .vmem S2048x128 .f32 := Memref.whole cc0_scratch0
abbrev VS0_0 : View sig .tc .vmem S2048x128 .f32 := scM0_0.view

/-- The core's other scoped buffers (the second region's eight staging buffers), each whole at some contents: they ride
    through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the launch hands the region, with the scratch as a buffer owned at some contents beside the rest. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.KernelIdeal.Fr

end
-- ==== Proof.KI.R0RunA.lean ====
/-
  The nearest-distance kernel's body at a batch's FIRST tile (first branch taken, second not): it resets the scratch to +∞,
  loads the adv block and the ori tile, lowers the scratch by the tile's minima, and stores nothing into the result's
  buffer, which it hands back as it found it. The pieces the scratch ends with are the witness the run finds.
-/
import proofs.«126610_j24790551233439_2_alg».proof.Proof.KI.R0Shared

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) :
    Σ' (L2 : List (View.Piece (Elt F) S1x1x2048 .f32)), { LS0 : List (View.Piece (Elt F) S2048x128 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨[], ?_, fun xi2 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0RunB.lean ====
/-
  The nearest-distance kernel's body at a MIDDLE tile (neither branch taken): from the scratch at what the tile before
  left, it loads the adv block and the ori tile, lowers the scratch by the tile's minima, and stores nothing into the
  result's buffer, which it hands back as it found it. The pieces the scratch ends with are the witness the run finds.
-/
import proofs.«126610_j24790551233439_2_alg».proof.Proof.KI.R0Shared

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) :
    Σ' (L2 : List (View.Piece (Elt F) S1x1x2048 .f32)), { LS0 : List (View.Piece (Elt F) S2048x128 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨[], ?_, fun xi2 E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0RunC.lean ====
/-
  The nearest-distance kernel's body at a batch's LAST tile (first branch not taken, second taken): from the scratch at
  what the tile before left, it loads the adv block and the ori tile, lowers the scratch by the tile's minima, then
  loads the scratch back and stores its lane-wise minima whole into the result's buffer. The pieces the scratch and the
  result's buffer end with are the witness the run finds.
-/
import proofs.«126610_j24790551233439_2_alg».proof.Proof.KI.R0Shared

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) :
    Σ' (L2 : List (View.Piece (Elt F) S1x1x2048 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__chamfer_min_kernel i arg2 harg2 arg3 harg3 arg4 harg4 arg5 harg5) K } := by
  refine ⟨?_, ?_, fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Region0.lean ====
/-
  The first region (the nearest-distance kernel): what the scratch of running minima and the result's buffer hold after
  each grid point, the region's proof data, and the body obligation, at any float instance and any entry contents `V`.
  After a batch's first tile the scratch holds that case's pieces read back; after every later tile the case's pieces
  over what the tile before left (`outsAt0`, by recursion on the point). The invariant between points carries the scratch
  at exactly those contents (`PhiS`), beside the core's other scoped buffers and the generator register, which the body
  never touches; before the first point and after the last the scratch's contents are forgotten.
-/
import proofs.«126610_j24790551233439_2_alg».proof.Proof.KI.R0RunA
import proofs.«126610_j24790551233439_2_alg».proof.Proof.KI.R0RunB
import proofs.«126610_j24790551233439_2_alg».proof.Proof.KI.R0RunC

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-tile case stores nothing into the result's buffer: a placeholder nothing consults (the window is idle). -/
def out0_A_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) : Vec F S1x1x2048 .f32 :=
  VO0_2.read (Elt F) (VO0_2.writes (Elt F) VO0_2.junk (kernelRun0_A c i arg2 harg2 arg3 harg3 arg4 harg4 arg5 harg5 hc0 hc1 x0 x1).1)

/-- Its pieces for the scratch cover it. -/
theorem scover0_A_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What the first-tile case leaves in the scratch. -/
def sout0_A_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- A middle tile stores nothing into the result's buffer either. -/
def out0_B_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) : Vec F S1x1x2048 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- What a middle tile leaves in the scratch, over what the tile before left. -/
def sout0_B_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- The last tile's one store covers the result's block. -/
theorem cover0_C_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) (y : S1x1x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x2048.size (by sl_kernel_rfl) y

/-- What the last tile leaves in the result's buffer. -/
def out0_C_2 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) : Vec F S1x1x2048 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- What the last tile leaves in the scratch. -/
def sout0_C_0 (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- THE ACCUMULATION: the result's buffer and the scratch after the body at position `n` — the case the tile index selects,
    run at the point's buffers and input blocks, the scratch (past a batch's first tile) at what position `n - 1` left. -/
def outsAt0 (c : Dev nD) : (n : ℕ) → n < cfg0.N → Vec F S1x1x2048 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a batch's first tile. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile: over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a batch's last tile: over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over; afterwards the scratch at what the point before left, the core's
    other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The region's proof data -/

/-- The arrays as the region finds them; after the body at point `t` each input's buffer at its block and the result's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the tile index says which case the point is in; the
    invariant hands the body the scratch at what the point before left (at anything at a batch's first tile) and takes it
    back at this point's contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by intro hz; rw [hz] at h0; exact h0 (Nat.zero_mod _)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Fr

end
-- ==== Proof.KI.Region1.lean ====
/-
  The second region (the farthest-gap kernel), at any float instance and at any contents `V` of the buffers when the
  region is entered. Its grid has one point per batch; at a point the three coordinate arrays' blocks (one batch: 16
  clusters of 128 numbers each) are fetched, the body loads them whole, computes one number per cluster and stores the
  16 numbers whole into the result's block, which is written back at every point. The body reads no grid position and
  branches nowhere, so one run serves every point: what the result's buffer holds afterwards is the one store's value
  as a function of the three loaded blocks (`out1_3`).
-/
import proofs.«126610_j24790551233439_2_alg».proof.Proof.Gen.KernelIdeal.Launch
import proofs.«126610_j24790551233439_2_alg».proof.Proof.Gen.KernelIdeal.Skeleton
import proofs.«126610_j24790551233439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_in : Rect S1x16x128 := Rect.unit (s := S1x16x128) ![0, 0, 0] S1x16x128.size inb_S1x16x128_S1x16x128_0_0_0
abbrev r1_out : Rect S1x1x16 := Rect.unit (s := S1x1x16) ![0, 0, 0] S1x1x16.size inb_S1x1x16_S1x1x16_0_0_0

/-- The result's buffer after the body, from the three loaded blocks: its one store. -/
def out1_3 (x0 x1 x2 : Vec F S1x16x128 .f32) : Vec F S1x1x16 .f32 :=
  View.canon [⟨r1_out, k1_pay1 (View.ld x0 r1_in) (View.ld x1 r1_in) (View.ld x2 r1_in)⟩]

/-- The one store covers the block. -/
theorem cover1_3 (p0 : Vec F S1x1x16 .f32) (y : S1x1x16.Idx) :
    ∃ pc ∈ ([⟨r1_out, p0⟩] : List (View.Piece (Elt F) S1x1x16 .f32)), y ∈ pc.1.set :=
  View.cover_of_tiled [⟨r1_out, p0⟩] S1x1x16.size (by rfl) y

/-! ## The body's triple -/

set_option maxHeartbeats 1000000 in
/-- On whole buffers, the three inputs' at their contents and the result's at anything, the body runs to the continuation
    holding the inputs' as they were and the result's at `out1_3` of them. -/
theorem sound_kernel1 (c : Dev nD) (E : Set ℕ) (i : grid1.Coords) (arg1 : Memref sig .tc .vmem S1x16x128 .f32) (harg1 : arg1.IsWhole) (arg2 : Memref sig .tc .vmem S1x16x128 .f32) (harg2 : arg2.IsWhole)
    (arg3 : Memref sig .tc .vmem S1x16x128 .f32) (harg3 : arg3.IsWhole) (arg4 : Memref sig .tc .vmem S1x1x16 .f32) (harg4 : arg4.IsWhole)
    (x0 x1 x2 : Vec F S1x16x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__far_kernel i arg1 harg1 arg2 harg2 arg3 harg3 arg4 harg4) K := by
  simp only [cc1__far_kernel_eq_skeleton]; unfold cc1__far_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the result's at
    `out1_3` of the input blocks; the invariant between points the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The whole run of @main, at any float instance: the first region, a stretch of host operations, the second region, a
  last stretch of host operations. The buffers' contents at each boundary are a fold from the launch memory — a region
  leaves its arrays at what its write-backs make of them and every other buffer as it was; a host stretch applies its
  operations — and every weakly fair execution from any memory with zero counters terminates, nothing faulting, with every
  unscoped buffer at the last boundary's contents (`run_all`). The argument arrays read back through the fold are the
  launch contents (no region writes one, no host operation writes one): the frame.
-/
import proofs.«126610_j24790551233439_2_alg».proof.Proof.KI.Region0
import proofs.«126610_j24790551233439_2_alg».proof.Proof.KI.Region1
import proofs.«126610_j24790551233439_2_alg».proof.Proof.Gen.KernelIdeal.Regions

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the first region's proof data take. -/
abbrev E0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E0' : (c : Dev nD) → (b : Ref sig .tc) → Buf (Elt F) ((c : Thread nD τ).loc b) := fun c b => W1 m c b
theorem hF0 (c : Dev nD) (w : Fin cfg0.W) : (dat0 (E0 m) c).arrAt w cfg0.N = E0' m c (Pipeline.arrRef spec0 w) :=
  (W1_arr m c w).symm
theorem hrest0 (c : Dev nD) : ∀ b, b ∉ Finset.univ.image (Pipeline.arrRef spec0) → E0' m c b = E0 m c b :=
  fun b hb => W1_of_ne m c b fun w e => hb (Finset.mem_image.mpr ⟨w, Finset.mem_univ _, e⟩)

/-- After the first host stretch: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2' : (c : Dev nD) → (b : Ref sig .tc) → Buf (Elt F) ((c : Thread nD τ).loc b) := fun c b => W3 m c b
theorem hF1 (c : Dev nD) (w : Fin cfg1.W) : (dat1 (E2 m) c).arrAt w cfg1.N = E2' m c (Pipeline.arrRef spec1 w) :=
  (W3_arr m c w).symm
theorem hrest1 (c : Dev nD) : ∀ b, b ∉ Finset.univ.image (Pipeline.arrRef spec1) → E2' m c b = E2 m c b :=
  fun b hb => W3_of_ne m c b fun w e => hb (Finset.mem_image.mpr ⟨w, Finset.mem_univ _, e⟩)
/-- After the last host stretch: the end. -/
abbrev W4 : Dev nD → Valuation τ sig (Elt F) := fun c => StableHlo.after hostOps2 (W3 m c)

/-- A host stretch changes only the buffers its operations write. -/
theorem W2_of (c : Dev nD) (r : Ref sig .tc) (h : r ∉ hostOps1_W) : W2 m c r = W1 m c r :=
  StableHlo.after_of_writes_sub hostOps1 _ hostOps1_writes h
theorem W4_of (c : Dev nD) (r : Ref sig .tc) (h : r ∉ hostOps2_W) : W4 m c r = W3 m c r :=
  StableHlo.after_of_writes_sub hostOps2 _ hostOps2_writes h

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 1).trans (((dat0 (E0 m) c).arrAt_in 1 rfl _).trans (A_eq0 (E0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl

/-! ## The proof data family and the thread state -/

/-- Every region's proof data, each at its entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer as launched, left at `W1`. Its arrays are
    split out of the unscoped buffers and put back at the exit contents; the generator register and the scoped rest go
    into the region's invariant (which carries the scratch between points) and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E0' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`; its invariant is
    the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E2' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Fr

end
-- ==== Proof.KI.Tail.lean ====
/-
  What @main's host operations make of the two regions' result arrays: both programs END with the same averaging — per
  batch, the mean over the 2048 adv points of the nearest squared distances, times the batch's weight, averaged over the 8
  batches and scaled by the f32 word of 0.1; plus, per batch, the sum over the 16 clusters of the farthest gaps, times the
  weight, averaged over the batches. It is named here as ONE function `tail` of the two arrays (already reshaped to
  [8,2048] and [8,16]) and the weights, never opened again; the kernel program's result at the last boundary is that
  function of what its two regions leave.
-/
import proofs.«126610_j24790551233439_2_alg».proof.Proof.KI.Run
import Idealize.ShloMosaic.Lib.StableHlo.Run
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The common averaging: `near` the nearest squared distances [8,2048], `far` the farthest gaps [8,16], `w` the weights. -/
def tail (near : FVec F S8x2048 .f32) (far : FVec F S8x16 .f32) (w : FVec F S8 .f32) : FVec F S_ .f32 :=
  addf
    (Host.divf
      (Host.reduceAdd (mulf (Host.reduceAdd far (constant S_ .f32 0x00000000#32) reducesTo_S8x16_S8_d1 h_S_) w)
        (constant S_ .f32 0x00000000#32) reducesTo_S8_S_d0 h_S_)
      (constant S_ .f32 0x41000000#32))
    (mulf
      (Host.divf
        (Host.reduceAdd
          (mulf
            (Host.divf (Host.reduceAdd near (constant S_ .f32 0x00000000#32) reducesTo_S8x2048_S8_d1 h_S_)
              (broadcastInDim S8 ![] bcast_S_S8 (constant S_ .f32 0x45000000#32)))
            w)
          (constant S_ .f32 0x00000000#32) reducesTo_S8_S_d0 h_S_)
        (constant S_ .f32 0x41000000#32))
      (constant S_ .f32 0x3DCCCCCD#32))

variable (m : (ℓ : Loc nD τ sig) → Buf (Elt F) ℓ)

/-- The weights reach both host stretches as launched. -/
theorem W1_main_arg2 (c : Dev nD) : W1 m c (Proc.devRef .tc main_arg2) = m ((c : Thread nD τ).loc main_arg2) :=
  (W1_of_ne m c main_arg2 (by decide)).trans rfl
theorem W3_main_arg2 (c : Dev nD) : W3 m c (Proc.devRef .tc main_arg2) = m ((c : Thread nD τ).loc main_arg2) :=
  (W3_of_ne m c main_arg2 (by decide)).trans ((W2_of m c main_arg2 (by decide)).trans (W1_main_arg2 m c))

/-- The first stretch's scalar (the weighted mean of the nearest distances) reaches the second stretch unchanged. -/
theorem W3_main_v7 (c : Dev nD) : W3 m c (Proc.devRef .tc main_v7) =
    Host.divf
      (Host.reduceAdd
        (mulf
          (Host.divf (Host.reduceAdd (shapeCast S8x2048 (W1 m c (Proc.devRef .tc main_v0)) shapeCasts_S8x1x2048_S8x2048) (constant S_ .f32 0x00000000#32) reducesTo_S8x2048_S8_d1 h_S_)
            (broadcastInDim S8 ![] bcast_S_S8 (constant S_ .f32 0x45000000#32)))
          (m ((c : Thread nD τ).loc main_arg2)))
        (constant S_ .f32 0x00000000#32) reducesTo_S8_S_d0 h_S_)
      (constant S_ .f32 0x41000000#32) := by
  refine (W3_of_ne m c main_v7 (by decide)).trans ?_
  rw [← W1_main_arg2 m c]
  show StableHlo.after hostOps1 (W1 m c) (Proc.devRef .tc main_v7) = _
  after_results
  rfl

/-- THE RESULT at the last boundary: the common averaging of what the two regions leave. -/
theorem W4_result (c : Dev nD) : W4 m c (Proc.devRef .tc main_v22) =
    tail (shapeCast S8x2048 (W1 m c (Proc.devRef .tc main_v0)) shapeCasts_S8x1x2048_S8x2048)
      (shapeCast S8x16 (W3 m c (Proc.devRef .tc main_v15)) shapeCasts_S8x1x16_S8x16) (m ((c : Thread nD τ).loc main_arg2)) := by
  unfold tail
  rw [← W3_main_v7 m c, ← W3_main_arg2 m c]
  show StableHlo.after hostOps2 (W3 m c) (Proc.devRef .tc main_v22) = _
  after_results
  rfl

end Cert.KernelIdeal.Fr

end
-- ==== Proof.Spec.lean ====
/-
  The two quantities both programs compute before their common averaging, stated once over the extended reals and
  index by index, with every coordinate a literal `Fin`.

  * For a batch `b` and an adv point `k`, the nearest squared distance: the least, over the 8192 ori points `m` of the batch,
    of the squared Euclidean distance between adv point `k` and ori point `m`, written coordinate by coordinate as
    `(dx·dx + dy·dy) + dz·dz`. The least element of an empty family would be `⊤`; the family is not empty.
  * The 2048 adv points of a batch are 16 clusters of 128 consecutive points; point `p` of cluster `a` is row `a·128 + p`.
    For a batch `b` and a cluster `a`, the farthest gap: the square root of the greatest, over ordered pairs `(p, q)` of the
    cluster's points, of `Σ_d (x_q,d − x_p,d + ε)²`, with `ε` the binary value of the f32 word `0x33D6BF95`.
  Nothing here mentions a program: each side proves that what it computes is one of these functions.
-/
import Idealize.ShloMosaic.PureOps.Ideal
import Idealize.ShloMosaic.Lib.ValueIdx

noncomputable section

namespace Cert.Spec

open Idealize.ShloMosaic Idealize.ShloMosaic.ValueIdx

/-- The adv points: 8 batches of 2048 points of 3 coordinates. -/
abbrev SAdv : Shape := ⟨3, ![8, 2048, 3]⟩
/-- The ori points: 8 batches of 8192 points of 3 coordinates. -/
abbrev SOri : Shape := ⟨3, ![8, 8192, 3]⟩
/-- One number per batch and adv point. -/
abbrev SNear : Shape := ⟨2, ![8, 2048]⟩
/-- One number per batch and cluster. -/
abbrev SFar : Shape := ⟨2, ![8, 16]⟩

/-- Coordinate `d` of (adv point `k` − ori point `m`) in batch `b`. -/
def diff (A : SAdv.Idx → EReal) (O : SOri.Idx → EReal) (b : Fin 8) (k : Fin 2048) (m : Fin 8192) (d : Fin 3) : EReal :=
  A (ix3 b k d) - O (ix3 b m d)

/-- The squared distance between adv point `k` and ori point `m` of batch `b`: `(dx·dx + dy·dy) + dz·dz`. -/
def sqDist (A : SAdv.Idx → EReal) (O : SOri.Idx → EReal) (b : Fin 8) (k : Fin 2048) (m : Fin 8192) : EReal :=
  diff A O b k m 0 * diff A O b k m 0 + diff A O b k m 1 * diff A O b k m 1 + diff A O b k m 2 * diff A O b k m 2

/-- The nearest squared distance from adv point `k` of batch `b` to the batch's ori points. -/
def nearest (A : SAdv.Idx → EReal) (O : SOri.Idx → EReal) (b : Fin 8) (k : Fin 2048) : EReal :=
  Finset.univ.inf fun m : Fin 8192 => sqDist A O b k m

/-- The same as an array over (batch, adv point). -/
def nearestArr (A : SAdv.Idx → EReal) (O : SOri.Idx → EReal) : SNear.Idx → EReal :=
  fun j => nearest A O (j 0) (j 1)

/-- The offset added to every coordinate difference inside a cluster: the exact value of the f32 word. -/
def eps : EReal := Ideal.ofBits .f32 0x33D6BF95#32

/-- Point `p` of cluster `a` is row `a·128 + p` of the batch's 2048 adv points. -/
def row (a : Fin 16) (p : Fin 128) : Fin 2048 :=
  ⟨a.val * 128 + p.val, by have := a.isLt; have := p.isLt; omega⟩

/-- Coordinate `d` of (point `q` − point `p` + ε) inside cluster `a` of batch `b`. -/
def gap (A : SAdv.Idx → EReal) (b : Fin 8) (a : Fin 16) (p q : Fin 128) (d : Fin 3) : EReal :=
  A (ix3 b (row a q) d) - A (ix3 b (row a p) d) + eps

/-- `Σ_d gap²`, written `(g0·g0 + g1·g1) + g2·g2`. -/
def sqGap (A : SAdv.Idx → EReal) (b : Fin 8) (a : Fin 16) (p q : Fin 128) : EReal :=
  gap A b a p q 0 * gap A b a p q 0 + gap A b a p q 1 * gap A b a p q 1 + gap A b a p q 2 * gap A b a p q 2

/-- The farthest gap inside cluster `a` of batch `b`: the root of the greatest `sqGap` over ordered pairs of its points. -/
def farthest (A : SAdv.Idx → EReal) (b : Fin 8) (a : Fin 16) : EReal :=
  Ideal.sqrt (Finset.univ.sup fun p : Fin 128 => Finset.univ.sup fun q : Fin 128 => sqGap A b a p q)

/-- The same as an array over (batch, cluster). -/
def farthestArr (A : SAdv.Idx → EReal) : SFar.Idx → EReal :=
  fun j => farthest A (j 0) (j 1)

/-- Every entry of an array is a real number. -/
def AllReal {S : Shape} (X : S.Idx → EReal) : Prop := ∀ i, ∃ r : ℝ, X i = (r : EReal)

end Cert.Spec

end
-- ==== Proof.PayIdeal.lean ====
/-
  The kernel's stored values read at an index, over the extended reals.

  Each stored value is a chain of vector operations on the blocks loaded before it. Read at one index, the pointwise
  operations act on the elements, a layout operation reads its operand at one index, and a reduction over one axis is
  the least (greatest) element over that axis's coordinates. Four results: the accumulator's reset value is +∞; one
  accumulation step takes the old entry against the least of four squared distances; the epilogue takes the least over a
  row's 128 lanes; the far kernel takes the root of the greatest squared gap over ordered pairs of a cluster's points.
-/
import proofs.«126610_j24790551233439_2_alg».proof.Proof.Gen.KernelIdeal.Skeleton
import proofs.«126610_j24790551233439_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayIdeal

open Idealize.ShloMosaic Idealize.ShloMosaic.ValueIdx Cert.KernelIdeal Cert.KernelIdeal.Gen

/-! ## The two infinities as f32 words -/

/-- The f32 word of +∞ is the top extended real. -/
theorem ofBits_posInf : Ideal.ofBits .f32 0x7F800000#32 = ⊤ := by simp [Ideal.ofBits, Ideal.ieee]
/-- The f32 word of −∞ is the bottom extended real. -/
theorem ofBits_negInf : Ideal.ofBits .f32 0xFF800000#32 = ⊥ := by simp [Ideal.ofBits, Ideal.ieee]

/-! ## A reduction over one axis as a least or greatest element -/

/-- The fold of `min` from +∞ over all of `Fin n` is the least element of the family. -/
theorem fold_min_top {n : Nat} (f : Fin n → EReal) :
    (Finset.univ : Finset (Fin n)).fold min ⊤ f = Finset.univ.inf f := rfl
/-- The fold of `max` from −∞ over all of `Fin n` is the greatest element of the family. -/
theorem fold_max_bot {n : Nat} (f : Fin n → EReal) :
    (Finset.univ : Finset (Fin n)).fold max ⊥ f = Finset.univ.sup f := rfl

/-- The fold of `min` from the value of the f32 word of +∞ is the least element of the family. -/
theorem fold_min_posInf {n : Nat} (f : Fin n → EReal) :
    (Finset.univ : Finset (Fin n)).fold min (Ideal.ofBits .f32 0x7F800000#32) f = Finset.univ.inf f := by
  rw [ofBits_posInf]; rfl
/-- The fold of `max` from the value of the f32 word of −∞ is the greatest element of the family. -/
theorem fold_max_negInf {n : Nat} (f : Fin n → EReal) :
    (Finset.univ : Finset (Fin n)).fold max (Ideal.ofBits .f32 0xFF800000#32) f = Finset.univ.sup f := by
  rw [ofBits_negInf]; rfl

/-- A `minimumf` reduction over one axis is the fold of `min` from the accumulator's value over that axis's coordinates:
    the same reading as for `maximumf`, with the order reversed. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The accumulator's reset value -/

/-- the accumulator's reset value: +∞ everywhere -/
theorem pay2_apply (j : S2048x128.Idx) : k0_pay2 (F := Ideal) j = ⊤ := by
  unfold k0_pay2
  rw [shapeCast_self]
  exact ofBits_posInf

/-! ## The epilogue -/

/-- The source index of the lane reduction of a [2048, 128] array over row `k` at lane `l`. -/
theorem lift_row (k : Fin 2048) (l : Fin 128) :
    reduces_S2048x128_S2048.lift (ix1 k) l = ix2 k l := by
  funext c
  match c with
  | ⟨0, _⟩ => rfl
  | ⟨1, _⟩ => rfl

/-- the epilogue: the least over the 128 lanes of a row of the accumulator -/
theorem pay1_apply (acc : Vec Ideal S2048x128 .f32) (k : Fin 2048) :
    k0_pay1 acc (ix3 0 0 k) = Finset.univ.inf fun l : Fin 128 => acc (ix2 k l) := by
  unfold k0_pay1
  refine (shapeCast_apply _ _ (ix3 0 0 k) (ix1 k) ?_).trans ?_
  · rw [Shape.rowMajor_val_three, Shape.rowMajor_val_one]
    show k.val = (0 * 1 + 0) * 2048 + k.val
    omega
  refine (multiReduction_minimumf_single (φ := .f32) (s := S2048x128) (t := S2048) (a := 1) acc 0x7F800000#32 reduces_S2048x128_S2048 (.inl rfl) rfl (ix1 k)).trans ?_
  refine (fold_min_posInf (n := 128) (fun l => acc (reduces_S2048x128_S2048.lift (ix1 k) l))).trans ?_
  exact congrArg (Finset.univ : Finset (Fin 128)).inf (funext fun l => congrArg acc (lift_row k l))

/-! ## Layout operations at literal coordinates: the two column forms -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column cast to `[a]` reads, at `i`, the column at `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## One accumulation step -/

/-- the tile's squared distance between adv row k and ori row n of the two loaded blocks -/
def tileSq (x0 : Vec Ideal S1x2048x3 .f32) (x1 : Vec Ideal S1x512x3 .f32) (k : Fin 2048) (n : Fin 512) : EReal :=
  (x0 (ix3 0 k 0) - x1 (ix3 0 n 0)) * (x0 (ix3 0 k 0) - x1 (ix3 0 n 0)) + (x0 (ix3 0 k 1) - x1 (ix3 0 n 1)) * (x0 (ix3 0 k 1) - x1 (ix3 0 n 1)) + (x0 (ix3 0 k 2) - x1 (ix3 0 n 2)) * (x0 (ix3 0 k 2) - x1 (ix3 0 n 2))

/-- ori row g·128 + l of the tile -/
def lane (g : Fin 4) (l : Fin 128) : Fin 512 := ⟨g.val * 128 + l.val, by have := g.isLt; have := l.isLt; omega⟩

/-- Coordinate `d` of adv row `k`, as the column the tile spreads over its 512 columns. -/
theorem adv_col (x0 : Vec Ideal S1x2048x3 .f32) (o : Nat) (d : Fin 3) (hd : d.val = o)
    (h : S2048x3.Slices ![0, o] S2048x1) (k : Fin 2048) (n : Fin 512) :
    broadcastTo S2048x512 (extractStridedSlice S2048x1 ![0, o] (shapeCast S2048x3 x0 shapeCasts_S1x2048x3_S2048x3) h)
      broadcasts_S2048x1_S2048x512 (ix2 k n) = x0 (ix3 0 k d) := by
  refine (broadcastTo_a1_ab_apply _ _ k n).trans ?_
  refine (slice2_axis1_apply o _ h k (0 : Fin 1) d (by rw [hd]; rfl)).trans ?_
  exact shapeCast_1ab_ab_apply x0 _ k d

/-- Coordinate `d` of ori row `n`, as the row the tile spreads over its 2048 rows. -/
theorem ori_row (x1 : Vec Ideal S1x512x3 .f32) (o : Nat) (d : Fin 3) (hd : d.val = o)
    (h : S512x3.Slices ![0, o] S512x1) (k : Fin 2048) (n : Fin 512) :
    broadcastTo S2048x512 (shapeCast S1x512 (shapeCast S512 (extractStridedSlice S512x1 ![0, o]
      (shapeCast S512x3 x1 shapeCasts_S1x512x3_S512x3) h) shapeCasts_S512x1_S512) shapeCasts_S512_S1x512)
      broadcasts_S1x512_S2048x512 (ix2 k n) = x1 (ix3 0 n d) := by
  refine (broadcastTo_1b_ab_apply _ _ k n).trans ?_
  refine (shapeCast_a_1a_apply _ _ (0 : Fin 1) n).trans ?_
  refine (shapeCast_a1_a_apply _ _ n).trans ?_
  refine (slice2_axis1_apply o _ h n (0 : Fin 1) d (by rw [hd]; rfl)).trans ?_
  exact shapeCast_1ab_ab_apply x1 _ n d

/-- The source index of the reduction of a [2048, 4, 128] array over its middle axis. -/
theorem lift_lane (k : Fin 2048) (l : Fin 128) (g : Fin 4) :
    reduces_S2048x4x128_S2048x128.lift (ix2 k l) g = ix3 k g l := by
  funext c
  match c with
  | ⟨0, _⟩ => rfl
  | ⟨1, _⟩ => rfl
  | ⟨2, _⟩ => rfl

/-- A squared difference of equal operands. -/
theorem sq_congr {a a' b b' : EReal} (ha : a = a') (hb : b = b') : (a - b) * (a - b) = (a' - b') * (a' - b') := by
  rw [ha, hb]
/-- A sum of three equal terms. -/
theorem sum3_congr {p p' q q' r r' : EReal} (hp : p = p') (hq : q = q') (hr : r = r') : p + q + r = p' + q' + r' := by
  rw [hp, hq, hr]

/-- one accumulation step: the old accumulator entry against the least of the tile's four rows that share lane l -/
theorem pay3_apply (x0 : Vec Ideal S1x2048x3 .f32) (x1 : Vec Ideal S1x512x3 .f32) (acc : Vec Ideal S2048x128 .f32) (k : Fin 2048) (l : Fin 128) :
    k0_pay3 x0 x1 acc (ix2 k l) = min (acc (ix2 k l)) (Finset.univ.inf fun g : Fin 4 => tileSq x0 x1 k (lane g l)) := by
  unfold k0_pay3
  rw [shapeCast_self]
  refine congrArg (min (acc (ix2 k l))) ?_
  refine (multiReduction_minimumf_single (φ := .f32) (s := S2048x4x128) (t := S2048x128) (a := 1) _ 0x7F800000#32
    reduces_S2048x4x128_S2048x128 (.inl rfl) rfl (ix2 k l)).trans ?_
  refine (fold_min_posInf (n := 4) _).trans ?_
  refine congrArg (Finset.univ : Finset (Fin 4)).inf (funext fun g => ?_)
  refine (congrArg _ (lift_lane k l g)).trans ?_
  refine (shapeCast_apply _ _ (ix3 k g l) (ix2 k (lane g l)) ?_).trans ?_
  · rw [Shape.rowMajor_val_two, Shape.rowMajor_val_three]
    show k.val * 512 + (g.val * 128 + l.val) = (k.val * 4 + g.val) * 128 + l.val
    omega
  exact sum3_congr
    (sq_congr (adv_col x0 0 0 rfl _ k (lane g l)) (ori_row x1 0 0 rfl _ k (lane g l)))
    (sq_congr (adv_col x0 1 1 rfl _ k (lane g l)) (ori_row x1 1 1 rfl _ k (lane g l)))
    (sq_congr (adv_col x0 2 2 rfl _ k (lane g l)) (ori_row x1 2 2 rfl _ k (lane g l)))

/-! ## The far kernel -/

section FarLayout
variable {α : Type}

/-- An `[a, 1, c]` array broadcast to `[a, b, c]` reads, at `(i, p, q)`, the operand at `(i, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (p : Fin b) (q : Fin c) :
    broadcastTo ⟨3, ![a, b, c]⟩ v h (ix3 i p q) = v (ix3 i (0 : Fin 1) q) := by
  refine broadcastTo_apply v h (ix3 i p q) (ix3 i (0 : Fin 1) q) fun ax => ?_
  match ax with
  | ⟨0, _⟩ =>
    show i.val = if a = 1 then 0 else i.val
    split
    · have := i.isLt; omega
    · rfl
  | ⟨1, _⟩ => rfl
  | ⟨2, _⟩ =>
    show q.val = if c = 1 then 0 else q.val
    split
    · have := q.isLt; omega
    · rfl

/-- An `[a, b, 1]` array broadcast to `[a, b, c]` reads, at `(i, p, q)`, the operand at `(i, p, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (p : Fin b) (q : Fin c) :
    broadcastTo ⟨3, ![a, b, c]⟩ v h (ix3 i p q) = v (ix3 i p (0 : Fin 1)) := by
  refine broadcastTo_apply v h (ix3 i p q) (ix3 i p (0 : Fin 1)) fun ax => ?_
  match ax with
  | ⟨0, _⟩ =>
    show i.val = if a = 1 then 0 else i.val
    split
    · have := i.isLt; omega
    · rfl
  | ⟨1, _⟩ =>
    show p.val = if b = 1 then 0 else p.val
    split
    · have := p.isLt; omega
    · rfl
  | ⟨2, _⟩ => rfl

/-- An `[a, c]` array cast to `[a, 1, c]` reads, at `(i, u, q)`, the operand at `(i, q)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (q : Fin c) :
    shapeCast ⟨3, ![a, 1, c]⟩ x h (ix3 i u q) = x (ix2 i q) :=
  shapeCast_apply x h _ _ (by
    have hu : u.val = 0 := by omega
    rw [Shape.rowMajor_val_three, Shape.rowMajor_val_two]
    show i.val * c + q.val = (i.val * 1 + u.val) * c + q.val
    rw [hu, Nat.mul_one, Nat.add_zero])

/-- An `[a, b]` array cast to `[a, b, 1]` reads, at `(i, p, u)`, the operand at `(i, p)`. -/
theorem shapeCast_ab_ab1_apply {a b : ℕ} (x : (⟨2, ![a, b]⟩ : Shape).Idx → α)
    (h : (⟨2, ![a, b]⟩ : Shape).ShapeCasts ⟨3, ![a, b, 1]⟩) (i : Fin a) (p : Fin b) (u : Fin 1) :
    shapeCast ⟨3, ![a, b, 1]⟩ x h (ix3 i p u) = x (ix2 i p) :=
  shapeCast_apply x h _ _ (by
    have hu : u.val = 0 := by omega
    rw [Shape.rowMajor_val_three, Shape.rowMajor_val_two]
    show i.val * b + p.val = (i.val * b + p.val) * 1 + u.val
    rw [hu, Nat.mul_one, Nat.add_zero])

end FarLayout

/-- A coordinate array of the clusters, spread along the first point axis: at `(a, p, q)` it reads point `q`. -/
theorem far_q (c : Vec Ideal S1x16x128 .f32) (a : Fin 16) (p q : Fin 128) :
    broadcastTo S16x128x128 (shapeCast S16x1x128 (shapeCast S16x128 c shapeCasts_S1x16x128_S16x128) shapeCasts_S16x128_S16x1x128)
      broadcasts_S16x1x128_S16x128x128 (ix3 a p q) = c (ix3 0 a q) := by
  refine (broadcastTo_a1c_abc_apply _ _ a p q).trans ?_
  refine (shapeCast_ac_a1c_apply _ _ a (0 : Fin 1) q).trans ?_
  exact shapeCast_1ab_ab_apply c _ a q

/-- The same array spread along the second point axis: at `(a, p, q)` it reads point `p`. -/
theorem far_p (c : Vec Ideal S1x16x128 .f32) (a : Fin 16) (p q : Fin 128) :
    broadcastTo S16x128x128 (shapeCast S16x128x1 (shapeCast S16x128 c shapeCasts_S1x16x128_S16x128) shapeCasts_S16x128_S16x128x1)
      broadcasts_S16x128x1_S16x128x128 (ix3 a p q) = c (ix3 0 a p) := by
  refine (broadcastTo_ab1_abc_apply _ _ a p q).trans ?_
  refine (shapeCast_ab_ab1_apply _ _ a p (0 : Fin 1)).trans ?_
  exact shapeCast_1ab_ab_apply c _ a p

/-- The source index of the reduction of a [16, 128] array over its second axis. -/
theorem lift_p (a : Fin 16) (p : Fin 128) : reduces_S16x128_S16.lift (ix1 a) p = ix2 a p := by
  funext c
  match c with
  | ⟨0, _⟩ => rfl
  | ⟨1, _⟩ => rfl

/-- The source index of the reduction of a [16, 128, 128] array over its last axis. -/
theorem lift_q (a : Fin 16) (p q : Fin 128) : reduces_S16x128x128_S16x128.lift (ix2 a p) q = ix3 a p q := by
  funext c
  match c with
  | ⟨0, _⟩ => rfl
  | ⟨1, _⟩ => rfl
  | ⟨2, _⟩ => rfl

/-- The greatest over the second axis of a [16, 128] array, at row `a`. -/
theorem max_axis1 (v : FVec Ideal S16x128 .f32) (a : Fin 16) :
    multiReduction .maximumf [1] S16 v 0xFF800000#32 reduces_S16x128_S16 (.inl rfl) rfl (ix1 a)
      = Finset.univ.sup fun p : Fin 128 => v (ix2 a p) := by
  refine (Ideal.multiReduction_maximumf_single (φ := .f32) (s := S16x128) (t := S16) (a := 1) v 0xFF800000#32
    reduces_S16x128_S16 (.inl rfl) rfl (ix1 a)).trans ?_
  refine (fold_max_negInf (n := 128) _).trans ?_
  exact congrArg (Finset.univ : Finset (Fin 128)).sup (funext fun p => congrArg v (lift_p a p))

/-- The greatest over the last axis of a [16, 128, 128] array, at `(a, p)`. -/
theorem max_axis2 (v : FVec Ideal S16x128x128 .f32) (a : Fin 16) (p : Fin 128) :
    multiReduction .maximumf [2] S16x128 v 0xFF800000#32 reduces_S16x128x128_S16x128 (.inl rfl) rfl (ix2 a p)
      = Finset.univ.sup fun q : Fin 128 => v (ix3 a p q) := by
  refine (Ideal.multiReduction_maximumf_single (φ := .f32) (s := S16x128x128) (t := S16x128) (a := 2) v 0xFF800000#32
    reduces_S16x128x128_S16x128 (.inl rfl) rfl (ix2 a p)).trans ?_
  refine (fold_max_negInf (n := 128) _).trans ?_
  exact congrArg (Finset.univ : Finset (Fin 128)).sup (funext fun q => congrArg v (lift_q a p q))

/-- A squared offset difference of equal operands. -/
theorem sqgap_congr (e : EReal) {a a' b b' : EReal} (ha : a = a') (hb : b = b') :
    (a - b + e) * (a - b + e) = (a' - b' + e) * (a' - b' + e) := by
  rw [ha, hb]

/-- the far kernel: per cluster a, the root of the greatest over (p, q) of Σ_d (c_d[a,q] − c_d[a,p] + ε)² -/
theorem k1pay_apply (cx cy cz : Vec Ideal S1x16x128 .f32) (a : Fin 16) :
    k1_pay1 cx cy cz (ix3 0 0 a) = Ideal.sqrt (Finset.univ.sup fun p : Fin 128 => Finset.univ.sup fun q : Fin 128 =>
      (cx (ix3 0 a q) - cx (ix3 0 a p) + Cert.Spec.eps) * (cx (ix3 0 a q) - cx (ix3 0 a p) + Cert.Spec.eps)
      + (cy (ix3 0 a q) - cy (ix3 0 a p) + Cert.Spec.eps) * (cy (ix3 0 a q) - cy (ix3 0 a p) + Cert.Spec.eps)
      + (cz (ix3 0 a q) - cz (ix3 0 a p) + Cert.Spec.eps) * (cz (ix3 0 a q) - cz (ix3 0 a p) + Cert.Spec.eps)) := by
  unfold k1_pay1
  refine (shapeCast_apply _ _ (ix3 0 0 a) (ix1 a) ?_).trans ?_
  · rw [Shape.rowMajor_val_three, Shape.rowMajor_val_one]
    show a.val = (0 * 1 + 0) * 16 + a.val
    omega
  show Ideal.sqrt _ = Ideal.sqrt _
  refine congrArg Ideal.sqrt ?_
  refine (max_axis1 _ a).trans ?_
  refine congrArg (Finset.univ : Finset (Fin 128)).sup (funext fun p => ?_)
  refine (max_axis2 _ a p).trans ?_
  refine congrArg (Finset.univ : Finset (Fin 128)).sup (funext fun q => ?_)
  exact sum3_congr
    (sqgap_congr Cert.Spec.eps (far_q cx a p q) (far_p cx a p q))
    (sqgap_congr Cert.Spec.eps (far_q cy a p q) (far_p cy a p q))
    (sqgap_congr Cert.Spec.eps (far_q cz a p q) (far_p cz a p q))

end Cert.PayIdeal

end
-- ==== Proof.NearValue.lean ====
/-
  The nearest-distance region read as values. What each case of the body leaves in the scratch of running minima and in
  the result's buffer is the stored value of that case applied to the blocks the case reads: the first tile lowers +∞, a
  later tile lowers what the tile before left, and the last tile also reduces the lowered scratch along its lanes.

  Over the extended reals this is a minimum taken in stages. Point `t` of the grid is batch `t / 16`, tile `t % 16`; the
  adv block there is the batch's 2048 adv points and the ori block is the batch's ori rows `(t % 16)·512 … + 511`. After
  tile `j` the scratch holds at `(k, l)` the least squared distance from adv point `k` to the ori rows
  `j'·512 + g·128 + l` with `j' ≤ j`, `g < 4` (by induction on the point). Every ori row `m < 8192` is exactly one such
  row (`m / 512`, `m % 512 / 128`, `m % 128`), so the least over the 128 lanes after the last tile is the least over all
  8192 ori rows: each side is below every term of the other. The last tile of each batch writes that row of the result
  array back, and those 8 rows cover the array.
-/
import proofs.«126610_j24790551233439_2_alg».proof.Proof.KI.Region0
import proofs.«126610_j24790551233439_2_alg».proof.Proof.PayIdeal
import proofs.«126610_j24790551233439_2_alg».proof.Proof.Spec
import Idealize.ShloMosaic.Lib.Pipeline.Value
import Idealize.ShloMosaic.Lib.Tactic

set_option maxRecDepth 16384

noncomputable section

namespace Cert.NearValue

open Idealize.ShloMosaic Idealize.ShloMosaic.TcCoe Idealize.SL.Sem
open Idealize.ShloMosaic.Pipeline (Dat)
open Cert.KernelIdeal Cert.KernelIdeal.Gen Cert.KernelIdeal.Fr

open Idealize.ShloMosaic.ValueIdx Cert.PayIdeal

variable {F : FTy → Type} [FloatOps F]

/-- The zero offsets of a rank-2 block, however spelt. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

/-! ## What each case leaves, as the stored values of the blocks it reads -/

/-- A middle tile leaves in the scratch the lowered minima of what the tile before left. -/
theorem sout_B (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : ¬cond0_1 i)
    (x0 : Vec F S1x2048x3 .f32) (x1 : Vec F S1x512x3 .f32) (xs0 : Vec F S2048x128 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S2048x128) hz2]
  simp only [View.readAt_eq_ld, harg2.read_unread, harg3.read_unread, harg5.read_unread,
    View.ld_unit_zero (S := S1x2048x3) hz3, View.ld_unit_zero (S := S1x512x3) hz3, View.ld_unit_zero (S := S2048x128) hz2]

/-- The last tile leaves the same in the scratch. -/
theorem sout_C (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S2048x128) hz2]
  simp only [View.readAt_eq_ld, harg2.read_unread, harg3.read_unread, harg5.read_unread,
    View.ld_unit_zero (S := S1x2048x3) hz3, View.ld_unit_zero (S := S1x512x3) hz3, View.ld_unit_zero (S := S2048x128) hz2]

/-- The last tile leaves in the result's buffer the least over the lanes of the scratch it has just lowered. -/
theorem out_C (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : ¬cond0_0 i) (hc1 : cond0_1 i)
    (x0 : Vec F S1x2048x3 .f32) (x1 : Vec F S1x512x3 .f32) (xs0 : Vec F S2048x128 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x2048) hz3, View.readCov_unit_zero (S := S2048x128) _ hz2]
  simp only [View.readAt_eq_ld, harg2.read_unread, harg3.read_unread, harg5.read_unread,
    View.ld_unit_zero (S := S1x2048x3) hz3, View.ld_unit_zero (S := S1x512x3) hz3, View.ld_unit_zero (S := S2048x128) hz2]

/-- The first tile resets the scratch to +∞, reads it back, and leaves its lowered minima. -/
theorem sout_A (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x1x2048 .f32) (harg4 : arg4.IsWhole) (arg5 : Memref sig .tc .vmem S2048x128 .f32) (harg5 : arg5.IsWhole) (hc0 : cond0_0 i) (hc1 : ¬cond0_1 i)
    (x0 : Vec F S1x2048x3 .f32) (x1 : Vec F S1x512x3 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2048x128) hz2, View.readCov_unit_zero (S := S2048x128) _ hz2]
  simp only [View.readAt_eq_ld, harg2.read_unread, harg3.read_unread,
    View.ld_unit_zero (S := S1x2048x3) hz3, View.ld_unit_zero (S := S1x512x3) hz3]

/-! ## The result array, over the extended reals -/

section AtIdeal

variable (V : (c : Dev nD) → (b : Ref sig .tc) → Buf (Elt Ideal) ((c : Thread nD τ).loc b))

/-- The windows' block indices over the grid: point `t` is batch `t / 16`, tile `t % 16`. -/
theorem idx_facts : ∀ t : Fin cfg0.N,
    (win0_0.index t 0 = t.val / 16 ∧ win0_0.index t 1 = 0 ∧ win0_0.index t 2 = 0)
    ∧ (win0_1.index t 0 = t.val / 16 ∧ win0_1.index t 1 = t.val % 16 ∧ win0_1.index t 2 = 0)
    ∧ (win0_2.index t 0 = t.val / 16 ∧ win0_2.index t 1 = 0 ∧ win0_2.index t 2 = 0) :=
  (by decide +kernel : ∀ t : Fin grid0.N, _)

/-- The adv block at point `t` is the adv points of batch `t / 16`. -/
theorem iblk_adv (c : Dev nD) (t : Fin cfg0.N) (b : Fin 8) (hb : b.val = t.val / 16) (k : Fin 2048) (d : Fin 3) :
    (iblk0 V c 0 t : Vec Ideal S1x2048x3 .f32) (ix3 0 k d) = (V c main_arg0 : Cert.Spec.SAdv.Idx → EReal) (ix3 b k d) := by
  unfold iblk0
  rw [View.read_apply]
  show V c main_arg0 _ = V c main_arg0 _
  congr 1
  funext a
  apply Fin.ext
  match a with
  | ⟨0, _⟩ => show win0_0.index t 0 * 1 + 1 * 0 = b.val; rw [(idx_facts t).1.1, hb]; omega
  | ⟨1, _⟩ => show win0_0.index t 1 * 2048 + 1 * k.val = k.val; rw [(idx_facts t).1.2.1]; omega
  | ⟨2, _⟩ => show win0_0.index t 2 * 3 + 1 * d.val = d.val; rw [(idx_facts t).1.2.2]; omega

/-- The ori block at point `t` is rows `(t % 16)·512 …` of the ori points of batch `t / 16`. -/
theorem iblk_ori (c : Dev nD) (t : Fin cfg0.N) (b : Fin 8) (hb : b.val = t.val / 16) (n : Fin 512) (m : Fin 8192)
    (hm : m.val = t.val % 16 * 512 + n.val) (d : Fin 3) :
    (iblk0 V c 1 t : Vec Ideal S1x512x3 .f32) (ix3 0 n d) = (V c main_arg1 : Cert.Spec.SOri.Idx → EReal) (ix3 b m d) := by
  unfold iblk0
  rw [View.read_apply]
  show V c main_arg1 _ = V c main_arg1 _
  congr 1
  funext a
  apply Fin.ext
  match a with
  | ⟨0, _⟩ => show win0_1.index t 0 * 1 + 1 * 0 = b.val; rw [(idx_facts t).2.1.1, hb]; omega
  | ⟨1, _⟩ => show win0_1.index t 1 * 512 + 1 * n.val = m.val; rw [(idx_facts t).2.1.2.1, hm]; omega
  | ⟨2, _⟩ => show win0_1.index t 2 * 3 + 1 * d.val = d.val; rw [(idx_facts t).2.1.2.2]; omega

end AtIdeal

/-! ## The running minimum over the tiles of a batch -/

section Running

variable (A : Cert.Spec.SAdv.Idx → EReal) (O : Cert.Spec.SOri.Idx → EReal)

/-- The squared distance from adv point `k` to ori point `m` of batch `b`, at natural indices (+∞ outside the ranges). -/
def sqD (b : ℕ) (k : Fin 2048) (m : ℕ) : EReal :=
  if h : b < 8 ∧ m < 8192 then Cert.Spec.sqDist A O ⟨b, h.1⟩ k ⟨m, h.2⟩ else ⊤

/-- The least, over the four rows of tile `j` that share lane `l`, of the squared distance. -/
def tileMin (b : ℕ) (k : Fin 2048) (l : Fin 128) (j : ℕ) : EReal :=
  Finset.univ.inf fun g : Fin 4 => sqD A O b k (j * 512 + (g.val * 128 + l.val))

/-- The running minimum after tile `j`: from +∞, lowered by each tile in turn. -/
def runMin (b : ℕ) (k : Fin 2048) (l : Fin 128) : ℕ → EReal
  | 0 => min ⊤ (tileMin A O b k l 0)
  | j + 1 => min (runMin b k l j) (tileMin A O b k l (j + 1))

/-- The running minimum after tile `j` is below every squared distance to a row of lane `l` in a tile up to `j`. -/
theorem runMin_le (b : ℕ) (k : Fin 2048) (l : Fin 128) :
    ∀ (j j' : ℕ), j' ≤ j → ∀ g : Fin 4, runMin A O b k l j ≤ sqD A O b k (j' * 512 + (g.val * 128 + l.val))
  | 0, j', hj, g => by
    obtain rfl : j' = 0 := by omega
    exact (min_le_right _ _).trans (Finset.inf_le (f := fun g : Fin 4 => sqD A O b k (0 * 512 + (g.val * 128 + l.val))) (Finset.mem_univ g))
  | j + 1, j', hj, g => by
    by_cases h : j' = j + 1
    · subst h
      exact (min_le_right _ _).trans (Finset.inf_le (f := fun g : Fin 4 => sqD A O b k ((j + 1) * 512 + (g.val * 128 + l.val))) (Finset.mem_univ g))
    · exact (min_le_left _ _).trans (runMin_le b k l j j' (by omega) g)

/-- Whatever is below all of those is below the running minimum. -/
theorem le_runMin (b : ℕ) (k : Fin 2048) (l : Fin 128) (x : EReal) :
    ∀ j : ℕ, (∀ j' ≤ j, ∀ g : Fin 4, x ≤ sqD A O b k (j' * 512 + (g.val * 128 + l.val))) → x ≤ runMin A O b k l j
  | 0, hx => le_min le_top (Finset.le_inf fun g _ => hx 0 le_rfl g)
  | j + 1, hx => le_min (le_runMin b k l x j fun j' hj' g => hx j' (Nat.le_succ_of_le hj') g)
      (Finset.le_inf fun g _ => hx (j + 1) le_rfl g)

/-- Every ori row of a batch is one lane of one group of one tile, so the least over the lanes of the running minimum
    after the last tile is the nearest squared distance. -/
theorem inf_runMin_eq (b : Fin 8) (k : Fin 2048) :
    (Finset.univ.inf fun l : Fin 128 => runMin A O b.val k l 15) = Cert.Spec.nearest A O b k := by
  unfold Cert.Spec.nearest
  apply le_antisymm
  · refine Finset.le_inf fun m _ => ?_
    have hm := m.isLt
    have hl : m.val % 128 < 128 := Nat.mod_lt _ (by omega)
    have hg : m.val % 512 / 128 < 4 := by omega
    refine (Finset.inf_le (f := fun l : Fin 128 => runMin A O b.val k l 15) (Finset.mem_univ ⟨m.val % 128, hl⟩)).trans ?_
    refine (runMin_le A O b.val k ⟨m.val % 128, hl⟩ 15 (m.val / 512) (by omega) ⟨m.val % 512 / 128, hg⟩).trans ?_
    have e : m.val / 512 * 512 + (m.val % 512 / 128 * 128 + m.val % 128) = m.val := by omega
    show sqD A O b.val k (m.val / 512 * 512 + (m.val % 512 / 128 * 128 + m.val % 128)) ≤ _
    rw [e]
    unfold sqD
    rw [dif_pos ⟨b.isLt, hm⟩]
  · refine Finset.le_inf fun l _ => ?_
    refine le_runMin A O b.val k l _ 15 fun j' hj' g => ?_
    have hlt : j' * 512 + (g.val * 128 + l.val) < 8192 := by have := g.isLt; have := l.isLt; omega
    unfold sqD
    rw [dif_pos ⟨b.isLt, hlt⟩]
    exact Finset.inf_le (f := fun m : Fin 8192 => Cert.Spec.sqDist A O b k m) (Finset.mem_univ _)

end Running

/-! ## The scratch after each point, and the result's buffer after a batch's last tile -/

section Points

variable (V : (c : Dev nD) → (b : Ref sig .tc) → Buf (Elt Ideal) ((c : Thread nD τ).loc b))

/-- A tile's squared distance between the loaded blocks is the squared distance between the points they hold. -/
theorem tile_eq (c : Dev nD) (n : ℕ) (h : n < cfg0.N) (k : Fin 2048) (l : Fin 128) (g : Fin 4) :
    tileSq (iblk0 V c 0 ⟨n, h⟩) (iblk0 V c 1 ⟨n, h⟩) k (lane g l)
      = sqD (V c main_arg0) (V c main_arg1) (n / 16) k (n % 16 * 512 + (g.val * 128 + l.val)) := by
  have hN : n < 128 := lt_of_lt_of_eq h N_0
  have hb : n / 16 < 8 := by omega
  have hm : n % 16 * 512 + (g.val * 128 + l.val) < 8192 := by have := g.isLt; have := l.isLt; omega
  unfold sqD
  rw [dif_pos ⟨hb, hm⟩]
  unfold tileSq Cert.Spec.sqDist Cert.Spec.diff
  exact sum3_congr
    (sq_congr (iblk_adv V c ⟨n, h⟩ ⟨n / 16, hb⟩ rfl k 0) (iblk_ori V c ⟨n, h⟩ ⟨n / 16, hb⟩ rfl (lane g l) ⟨_, hm⟩ rfl 0))
    (sq_congr (iblk_adv V c ⟨n, h⟩ ⟨n / 16, hb⟩ rfl k 1) (iblk_ori V c ⟨n, h⟩ ⟨n / 16, hb⟩ rfl (lane g l) ⟨_, hm⟩ rfl 1))
    (sq_congr (iblk_adv V c ⟨n, h⟩ ⟨n / 16, hb⟩ rfl k 2) (iblk_ori V c ⟨n, h⟩ ⟨n / 16, hb⟩ rfl (lane g l) ⟨_, hm⟩ rfl 2))

/-- One accumulation step at point `n`: the old entry against tile `n % 16`'s least for that lane. -/
theorem step (c : Dev nD) (n : ℕ) (h : n < cfg0.N) (prev : Vec Ideal S2048x128 .f32) (k : Fin 2048) (l : Fin 128) :
    k0_pay3 (iblk0 V c 0 ⟨n, h⟩) (iblk0 V c 1 ⟨n, h⟩) prev (ix2 k l)
      = min (prev (ix2 k l)) (tileMin (V c main_arg0) (V c main_arg1) (n / 16) k l (n % 16)) := by
  refine (pay3_apply _ _ prev k l).trans ?_
  refine congrArg (min (prev (ix2 k l))) ?_
  unfold tileMin
  exact congrArg (Finset.univ : Finset (Fin 4)).inf (funext fun g => tile_eq V c n h k l g)

/-- The scratch after point `n` holds, at `(k, l)`, the running minimum of batch `n / 16` after tile `n % 16`. -/
theorem scratch_eq (c : Dev nD) : ∀ (n : ℕ) (h : n < cfg0.N) (k : Fin 2048) (l : Fin 128),
    (outsAt0 V c n h).2 (ix2 k l) = runMin (V c main_arg0) (V c main_arg1) (n / 16) k l (n % 16)
  | 0, h, k, l => by
    refine (congrFun (congrArg Prod.snd (outsAt0_A V c ⟨0, h⟩ rfl (by show ¬0 % 16 = 15; decide))) (ix2 k l)).trans ?_
    dsimp only
    rw [sout_A]
    refine (step V c 0 h _ k l).trans ?_
    rw [pay2_apply]
    rfl
  | n + 1, h, k, l => by
    have hN : n + 1 < 128 := lt_of_lt_of_eq h N_0
    by_cases h0 : (n + 1) % 16 = 0
    · have h1 : ¬(n + 1) % 16 = 15 := by omega
      refine (congrFun (congrArg Prod.snd (outsAt0_A V c ⟨n + 1, h⟩ h0 h1)) (ix2 k l)).trans ?_
      dsimp only
      rw [sout_A]
      refine (step V c (n + 1) h _ k l).trans ?_
      rw [pay2_apply, h0]
      rfl
    · have ih := scratch_eq c n (Nat.lt_of_succ_lt h) k l
      obtain ⟨j, hj⟩ : ∃ j, (n + 1) % 16 = j + 1 := ⟨(n + 1) % 16 - 1, by omega⟩
      have hn16 : n % 16 = j := by omega
      have hd : (n + 1) / 16 = n / 16 := by omega
      have hstep : (outsAt0 V c (n + 1) h).2 (ix2 k l)
          = k0_pay3 (iblk0 V c 0 ⟨n + 1, h⟩) (iblk0 V c 1 ⟨n + 1, h⟩) (outsAt0 V c n (Nat.lt_of_succ_lt h)).2 (ix2 k l) := by
        by_cases h1 : (n + 1) % 16 = 15
        · refine (congrFun (congrArg Prod.snd (outsAt0_C V c ⟨n + 1, h⟩ h0 h1)) (ix2 k l)).trans ?_
          dsimp only
          rw [sout_C]
          rfl
        · refine (congrFun (congrArg Prod.snd (outsAt0_B V c ⟨n + 1, h⟩ h0 h1)) (ix2 k l)).trans ?_
          dsimp only
          rw [sout_B]
          rfl
      rw [hstep]
      refine (step V c (n + 1) h _ k l).trans ?_
      rw [ih, hj, hd, hn16]
      rfl

/-- After a batch's last tile the result's buffer holds, at adv point `k`, the nearest squared distance of the batch. -/
theorem result_eq (c : Dev nD) (n : ℕ) (h : n < cfg0.N) (h15 : n % 16 = 15) (b : Fin 8) (hb : b.val = n / 16) (k : Fin 2048) :
    (outsAt0 V c n h).1 (ix3 0 0 k) = Cert.Spec.nearest (V c main_arg0) (V c main_arg1) b k := by
  have h0 : ¬n % 16 = 0 := by omega
  obtain ⟨n', rfl⟩ : ∃ n', n = n' + 1 := ⟨n - 1, by omega⟩
  have hs : (outsAt0 V c (n' + 1) h).2
      = k0_pay3 (iblk0 V c 0 ⟨n' + 1, h⟩) (iblk0 V c 1 ⟨n' + 1, h⟩) (outsAt0 V c n' (Nat.lt_of_succ_lt h)).2 := by
    refine (congrArg Prod.snd (outsAt0_C V c ⟨n' + 1, h⟩ h0 h15)).trans ?_
    dsimp only
    rw [sout_C]
    rfl
  refine (congrFun (congrArg Prod.fst (outsAt0_C V c ⟨n' + 1, h⟩ h0 h15)) (ix3 0 0 k)).trans ?_
  dsimp only
  rw [out_C]
  refine (pay1_apply _ k).trans ?_
  rw [← inf_runMin_eq (V c main_arg0) (V c main_arg1) b k, hb]
  refine congrArg (Finset.univ : Finset (Fin 128)).inf (funext fun l => ?_)
  have e := scratch_eq V c (n' + 1) h k l
  rw [hs, h15] at e
  exact e

end Points

/-! ## The result array after the region -/

section Final

variable (V : (c : Dev nD) → (b : Ref sig .tc) → Buf (Elt Ideal) ((c : Thread nD τ).loc b))

/-- What a batch's last tile writes back is the batch's row of nearest squared distances. -/
theorem flushed_eq (c : Dev nD) (t : Fin cfg0.N) (hf : (cfg0.win 2).flush t = true) :
    (dat0 (F := Ideal) V c).flushed 2 t = ((cfg0.win 2).blk t).view.read (Elt Ideal)
      (fun i => Cert.Spec.nearest (V c main_arg0) (V c main_arg1) (i 0) (i 2)) := by
  have h15 : t.val % 16 = 15 := (flush0_2 t).mp hf
  have hN : t.val < 128 := lt_of_lt_of_eq t.isLt N_0
  have hb : t.val / 16 < 8 := by omega
  show (cfg0.win 2).cut (grid0.coords t) ((dat0 V c).after 2 t) = _
  rw [after0_2]
  funext y
  rw [View.read_apply]
  have hy0 : (y 0).val < 1 := (y 0).isLt
  have hy1 : (y 1).val < 1 := (y 1).isLt
  have hy2 : (y 2).val < 2048 := (y 2).isLt
  have hy : y = (ix3 (0 : Fin 1) (0 : Fin 1) (⟨(y 2).val, hy2⟩ : Fin 2048) : S1x1x2048.Idx) := by
    funext a
    apply Fin.ext
    match a with
    | ⟨0, _⟩ => show (y 0).val = 0; omega
    | ⟨1, _⟩ => show (y 1).val = 0; omega
    | ⟨2, _⟩ => rfl
  generalize (⟨(y 2).val, hy2⟩ : Fin 2048) = k at hy
  subst hy
  show (outsAt0 V c t.val t.isLt).1 (ix3 0 0 k) = Cert.Spec.nearest (V c main_arg0) (V c main_arg1) _ _
  refine (result_eq V c t.val t.isLt h15 ⟨t.val / 16, hb⟩ rfl k).trans ?_
  have e0 : (⟨t.val / 16, hb⟩ : Fin 8) = ((cfg0.win 2).blk t).view.emb (ix3 (0 : Fin 1) (0 : Fin 1) k : S1x1x2048.Idx) 0 :=
    Fin.ext (by
      show t.val / 16 = win0_2.index t 0 * 1 + 1 * 0
      rw [(idx_facts t).2.2.1]; omega)
  have e2 : k = ((cfg0.win 2).blk t).view.emb (ix3 (0 : Fin 1) (0 : Fin 1) k : S1x1x2048.Idx) 2 :=
    Fin.ext (by
      show k.val = win0_2.index t 2 * 2048 + 1 * k.val
      rw [(idx_facts t).2.2.2.2]; omega)
  exact congrArg₂ (Cert.Spec.nearest (V c main_arg0) (V c main_arg1)) e0 e2

/-- The result array after the region: at `(b, 0, k)` the nearest squared distance from adv point `k` of batch `b` to
    the batch's ori points. Every index is written back by its batch's last tile. -/
theorem final0 (c : Dev nD) :
    (dat0 (F := Ideal) V c).arrAt 2 cfg0.N = fun i => Cert.Spec.nearest (V c main_arg0) (V c main_arg1) (i 0) (i 2) := by
  refine (dat0 V c).arrAt_eq_of_cover 2 _ (flushed_eq V c) fun i => ?_
  have h0 : (i 0).val < 8 := (i 0).isLt
  have h1 : (i 1).val < 1 := (i 1).isLt
  have h2 : (i 2).val < 2048 := (i 2).isLt
  have hN : cfg0.N = 128 := N_0
  have htN : (i 0).val * 16 + 15 < cfg0.N := by rw [hN]; omega
  refine ⟨⟨(i 0).val * 16 + 15, htN⟩, (flush0_2 _).mpr (by show ((i 0).val * 16 + 15) % 16 = 15; omega), ?_⟩
  show i ∈ ((View.whole main_v0).slice (win0_2.rect ⟨(i 0).val * 16 + 15, htN⟩)).set
  rw [View.set_slice_whole, Rect.mem_set_unit]
  intro a
  have hi := idx_facts ⟨(i 0).val * 16 + 15, htN⟩
  match a with
  | ⟨0, _⟩ =>
    show win0_2.index ⟨(i 0).val * 16 + 15, htN⟩ 0 * 1 ≤ (i 0).val ∧ (i 0).val < win0_2.index ⟨(i 0).val * 16 + 15, htN⟩ 0 * 1 + 1
    rw [hi.2.2.1]; dsimp only; omega
  | ⟨1, _⟩ =>
    show win0_2.index ⟨(i 0).val * 16 + 15, htN⟩ 1 * 1 ≤ (i 1).val ∧ (i 1).val < win0_2.index ⟨(i 0).val * 16 + 15, htN⟩ 1 * 1 + 1
    rw [hi.2.2.2.1]; omega
  | ⟨2, _⟩ =>
    show win0_2.index ⟨(i 0).val * 16 + 15, htN⟩ 2 * 2048 ≤ (i 2).val ∧ (i 2).val < win0_2.index ⟨(i 0).val * 16 + 15, htN⟩ 2 * 2048 + 2048
    rw [hi.2.2.2.2]; omega

end Final

end Cert.NearValue

end
-- ==== Proof.FarValue.lean ====
/-
  The second region's result array as mathematics. Each of the 8 grid points is a batch: the body maps the batch's three
  coordinate blocks (16 clusters of 128 numbers) to one number per cluster, the root of the greatest over ordered pairs
  (p, q) of Σ_d (c_d[a,q] − c_d[a,p] + ε)², and every point writes its block of 16 numbers back; the blocks tile the
  [8,1,16] array, so the array ends holding that number at every (batch, cluster). The three coordinate arrays are the
  columns of the adv points regrouped as [8,16,128], row a·128 + p at (a, p), so the number is the shared specification's
  farthest gap of the launch contents.
-/
import proofs.«126610_j24790551233439_2_alg».proof.Proof.KI.Run
import proofs.«126610_j24790551233439_2_alg».proof.Proof.PayIdeal
import proofs.«126610_j24790551233439_2_alg».proof.Proof.Spec
import Idealize.ShloMosaic.Lib.Pipeline.Value
import Idealize.ShloMosaic.Lib.StableHlo.Run
import Idealize.ShloMosaic.Lib.Tactic

set_option maxRecDepth 16384

noncomputable section

namespace Cert.FarValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl

/-- The result block after the body is the payload of the three loaded blocks: the one store covers the block and the
    loads read whole blocks. -/
theorem out1_eq {F : FTy → Type} [FloatOps F] (x0 x1 x2 : Vec F S1x16x128 .f32) : out1_3 x0 x1 x2 = k1_pay1 x0 x1 x2 := by
  unfold out1_3
  rw [View.canon_unit_zero hz3]
  simp only [View.ld_unit_zero (S := S1x16x128) hz3]

/-- The farthest gap of cluster a of batch b from three coordinate arrays. -/
def farOf (cx cy cz : S8x16x128.Idx → EReal) (b : Fin 8) (a : Fin 16) : EReal :=
  Ideal.sqrt (Finset.univ.sup fun p : Fin 128 => Finset.univ.sup fun q : Fin 128 =>
    (cx (ix3 b a q) - cx (ix3 b a p) + Cert.Spec.eps) * (cx (ix3 b a q) - cx (ix3 b a p) + Cert.Spec.eps)
    + (cy (ix3 b a q) - cy (ix3 b a p) + Cert.Spec.eps) * (cy (ix3 b a q) - cy (ix3 b a p) + Cert.Spec.eps)
    + (cz (ix3 b a q) - cz (ix3 b a p) + Cert.Spec.eps) * (cz (ix3 b a q) - cz (ix3 b a p) + Cert.Spec.eps))

section Region

/-! ## The result array after the second region -/

/-- The printed index maps, decided over the 8 points: every window's block at point t is block (t, 0, 0). -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- A grid point is a batch. -/
def batchOf (t : Fin cfg1.N) : Fin 8 := ⟨t.val, Nat.lt_of_lt_of_eq t.isLt N_1⟩

variable (V : (c : Dev nD) → (b : Ref sig .tc) → Buf (Elt Ideal) ((c : Thread nD τ).loc b))

/-- The first coordinate block at point t, read at (0, a, p): the array at (t, a, p). -/
theorem iblk1_0_at (c : Dev nD) (t : Fin cfg1.N) (a : Fin 16) (p : Fin 128) :
    (iblk1 V c 0 t : Vec Ideal S1x16x128 .f32) (ix3 0 a p) = V c main_v10 (ix3 (batchOf t) a p) := by
  obtain ⟨e0, e1, e2, -⟩ := idx_facts1 t
  unfold iblk1
  rw [View.read_apply]
  show V c main_v10 _ = V c main_v10 _
  congr 1
  funext x
  apply Fin.ext
  match x with
  | ⟨0, _⟩ => show win1_0.index t (0 : Fin 3) * 1 + 1 * 0 = t.val; omega
  | ⟨1, _⟩ => show win1_0.index t (1 : Fin 3) * 16 + 1 * a.val = a.val; omega
  | ⟨2, _⟩ => show win1_0.index t (2 : Fin 3) * 128 + 1 * p.val = p.val; omega

/-- The second coordinate block likewise. -/
theorem iblk1_1_at (c : Dev nD) (t : Fin cfg1.N) (a : Fin 16) (p : Fin 128) :
    (iblk1 V c 1 t : Vec Ideal S1x16x128 .f32) (ix3 0 a p) = V c main_v12 (ix3 (batchOf t) a p) := by
  obtain ⟨-, -, -, e0, e1, e2, -⟩ := idx_facts1 t
  unfold iblk1
  rw [View.read_apply]
  show V c main_v12 _ = V c main_v12 _
  congr 1
  funext x
  apply Fin.ext
  match x with
  | ⟨0, _⟩ => show win1_1.index t (0 : Fin 3) * 1 + 1 * 0 = t.val; omega
  | ⟨1, _⟩ => show win1_1.index t (1 : Fin 3) * 16 + 1 * a.val = a.val; omega
  | ⟨2, _⟩ => show win1_1.index t (2 : Fin 3) * 128 + 1 * p.val = p.val; omega

/-- The third coordinate block likewise. -/
theorem iblk1_2_at (c : Dev nD) (t : Fin cfg1.N) (a : Fin 16) (p : Fin 128) :
    (iblk1 V c 2 t : Vec Ideal S1x16x128 .f32) (ix3 0 a p) = V c main_v14 (ix3 (batchOf t) a p) := by
  obtain ⟨-, -, -, -, -, -, e0, e1, e2, -⟩ := idx_facts1 t
  unfold iblk1
  rw [View.read_apply]
  show V c main_v14 _ = V c main_v14 _
  congr 1
  funext x
  apply Fin.ext
  match x with
  | ⟨0, _⟩ => show win1_2.index t (0 : Fin 3) * 1 + 1 * 0 = t.val; omega
  | ⟨1, _⟩ => show win1_2.index t (1 : Fin 3) * 16 + 1 * a.val = a.val; omega
  | ⟨2, _⟩ => show win1_2.index t (2 : Fin 3) * 128 + 1 * p.val = p.val; omega

/-- What the result array ends holding: at (batch, 0, cluster) the farthest gap of the three coordinate arrays. -/
abbrev G1 (c : Dev nD) : S8x1x16.Idx → EReal :=
  fun i => farOf (V c main_v10) (V c main_v12) (V c main_v14) (i 0) (i 2)

/-- The payload at cluster a of the blocks at point t is the farthest gap of cluster a of batch t. -/
theorem pay_at (c : Dev nD) (t : Fin cfg1.N) (a : Fin 16) :
    k1_pay1 (F := Ideal) (iblk1 V c 0 t) (iblk1 V c 1 t) (iblk1 V c 2 t) (ix3 0 0 a)
      = farOf (V c main_v10) (V c main_v12) (V c main_v14) (batchOf t) a := by
  rw [Cert.PayIdeal.k1pay_apply]
  unfold farOf
  simp only [iblk1_0_at, iblk1_1_at, iblk1_2_at]

/-- WHAT POINT t WRITES BACK is block t of that array. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3, out1_eq]
  obtain ⟨-, -, -, -, -, -, -, -, -, e0, e1, e2⟩ := idx_facts1 t
  funext j
  show k1_pay1 (F := Ideal) (iblk1 V c 0 t) (iblk1 V c 1 t) (iblk1 V c 2 t) j = G1 V c (((cfg1.win 3).blk t).view.emb j)
  obtain ⟨a, rfl⟩ : ∃ a : Fin 16, j = ix3 (0 : Fin 1) (0 : Fin 1) a := ⟨j 2, funext fun x => Fin.ext (by
    have h0 : (j 0).val < 1 := (j 0).isLt
    have h1 : (j 1).val < 1 := (j 1).isLt
    match x with
    | ⟨0, _⟩ => show (j 0).val = 0; omega
    | ⟨1, _⟩ => show (j 1).val = 0; omega
    | ⟨2, _⟩ => rfl)⟩
  rw [pay_at]
  have hcongr : ∀ (u u' : Fin 8) (v v' : Fin 16), u = u' → v = v' →
      farOf (V c main_v10) (V c main_v12) (V c main_v14) u v = farOf (V c main_v10) (V c main_v12) (V c main_v14) u' v' := by
    rintro _ _ _ _ rfl rfl; rfl
  refine hcongr _ _ _ _ (Fin.ext ?_) (Fin.ext ?_)
  · show t.val = win1_3.index t (0 : Fin 3) * 1 + 1 * 0; omega
  · show a.val = win1_3.index t (2 : Fin 3) * 16 + 1 * a.val; omega

/-- An index of the array is in point t's block iff each coordinate is in the block's range on its axis. -/
theorem mem_blk1 (t : Fin cfg1.N) (i : S8x1x16.Idx) :
    i ∈ ((cfg1.win 3).blk t).view.set ↔ ∀ a : Fin 3, win1_3.index t a * S1x1x16.size a ≤ (i a).val ∧ (i a).val < win1_3.index t a * S1x1x16.size a + S1x1x16.size a := by
  show i ∈ ((View.whole main_v15).slice (win1_3.rect t)).set ↔ _
  rw [View.set_slice_whole, Rect.mem_set_unit]
  exact Iff.rfl

/-- THE ARRAY after the region: the blocks of the 8 points tile it (index i is in the block of point i₀), so it holds the
    farthest gap of the three coordinate arrays at every (batch, 0, cluster). -/
theorem final1 (c : Dev nD) :
    (dat1 (F := Ideal) V c).arrAt 3 cfg1.N = fun i => farOf (V c main_v10) (V c main_v12) (V c main_v14) (i 0) (i 2) :=
  (dat1 (F := Ideal) V c).arrAt_eq_of_cover 3 (G1 V c) (fun t _ => flushed1_eq V c t) fun i => by
    have hi0 : (i 0).val < 8 := (i 0).isLt
    have hi1 : (i 1).val < 1 := (i 1).isLt
    have hi2 : (i 2).val < 16 := (i 2).isLt
    let t : Fin cfg1.N := ⟨(i 0).val, Nat.lt_of_lt_of_eq hi0 N_1.symm⟩
    obtain ⟨-, -, -, -, -, -, -, -, -, e0, e1, e2⟩ := idx_facts1 t
    refine ⟨t, flush1_3 t, ?_⟩
    rw [mem_blk1]
    intro a
    match a with
    | ⟨0, _⟩ => show win1_3.index t (0 : Fin 3) * 1 ≤ (i 0).val ∧ (i 0).val < win1_3.index t (0 : Fin 3) * 1 + 1
                rw [e0]; show (i 0).val * 1 ≤ (i 0).val ∧ (i 0).val < (i 0).val * 1 + 1; omega
    | ⟨1, _⟩ => show win1_3.index t (1 : Fin 3) * 1 ≤ (i 1).val ∧ (i 1).val < win1_3.index t (1 : Fin 3) * 1 + 1; omega
    | ⟨2, _⟩ => show win1_3.index t (2 : Fin 3) * 16 ≤ (i 2).val ∧ (i 2).val < win1_3.index t (2 : Fin 3) * 16 + 16; omega

end Region

section Launch

/-! ## The three coordinate arrays the second region finds are the columns of the adv points -/

/-- Coordinate d of the adv points, cut out of the [8,16,128,3] reshape and reshaped to [8,16,128], read at (b, a, p):
    the adv array at row a·128 + p of batch b, coordinate d. -/
theorem coord_read (X : S8x2048x3.Idx → EReal) (d : Fin 3) (off : Fin 4 → Nat) (hoff : off = ![0, 0, 0, d.val])
    (hs : S8x16x128x3.Slices off S8x16x128x1) (b : Fin 8) (a : Fin 16) (p : Fin 128) :
    shapeCast S8x16x128 (extractStridedSlice S8x16x128x1 off (shapeCast S8x16x128x3 X shapeCasts_S8x2048x3_S8x16x128x3) hs)
        shapeCasts_S8x16x128x1_S8x16x128 (ix3 b a p)
      = X (ix3 b (Cert.Spec.row a p) d) := by
  subst hoff
  have hb := b.isLt; have ha := a.isLt; have hp := p.isLt; have hd := d.isLt
  refine (shapeCast_apply _ shapeCasts_S8x16x128x1_S8x16x128 (ix3 b a p) (ix4 b a p (0 : Fin 1)) ?_).trans ?_
  · rw [Shape.rowMajor_val_four, Shape.rowMajor_val_three]
    show ((b.val * 16 + a.val) * 128 + p.val) * 1 + 0 = (b.val * 16 + a.val) * 128 + p.val
    omega
  refine (extractStridedSlice_apply _ _ hs (ix4 b a p (0 : Fin 1)) (ix4 b a p d) ?_).trans ?_
  · intro c
    match c with
    | ⟨0, _⟩ => show b.val = 0 + b.val; omega
    | ⟨1, _⟩ => show a.val = 0 + a.val; omega
    | ⟨2, _⟩ => show p.val = 0 + p.val; omega
    | ⟨3, _⟩ => show d.val = d.val + 0; omega
  refine shapeCast_apply _ shapeCasts_S8x2048x3_S8x16x128x3 (ix4 b a p d) (ix3 b (Cert.Spec.row a p) d) ?_
  rw [Shape.rowMajor_val_three, Shape.rowMajor_val_four]
  show (b.val * 2048 + (a.val * 128 + p.val)) * 3 + d.val = ((b.val * 16 + a.val) * 128 + p.val) * 3 + d.val
  omega

variable (m : (ℓ : Loc nD τ sig) → Buf (Elt Ideal) ℓ)

/-- No region and no host operation before the second region writes the adv array. -/
theorem W1_arg0 (c : Dev nD) : W1 m c (Proc.devRef .tc main_arg0) = m ((c : Thread nD τ).loc main_arg0) :=
  (W1_arr m c 0).trans (((dat0 (E0 m) c).arrAt_in 0 rfl _).trans (A_eq0 (E0 m) c 0))

theorem E2_v10 (c : Dev nD) : E2 m c main_v10
    = shapeCast S8x16x128 (extractStridedSlice S8x16x128x1 ![0, 0, 0, 0]
        (shapeCast S8x16x128x3 (m ((c : Thread nD τ).loc main_arg0)) shapeCasts_S8x2048x3_S8x16x128x3)
        slices_S8x16x128x3_S8x16x128x1_0_0_0_0) shapeCasts_S8x16x128x1_S8x16x128 := by
  rw [← W1_arg0 m c]
  show StableHlo.after hostOps1 _ (Proc.devRef .tc main_v10) = _
  after_results
  rfl

theorem E2_v12 (c : Dev nD) : E2 m c main_v12
    = shapeCast S8x16x128 (extractStridedSlice S8x16x128x1 ![0, 0, 0, 1]
        (shapeCast S8x16x128x3 (m ((c : Thread nD τ).loc main_arg0)) shapeCasts_S8x2048x3_S8x16x128x3)
        slices_S8x16x128x3_S8x16x128x1_0_0_0_1) shapeCasts_S8x16x128x1_S8x16x128 := by
  rw [← W1_arg0 m c]
  show StableHlo.after hostOps1 _ (Proc.devRef .tc main_v12) = _
  after_results
  rfl

theorem E2_v14 (c : Dev nD) : E2 m c main_v14
    = shapeCast S8x16x128 (extractStridedSlice S8x16x128x1 ![0, 0, 0, 2]
        (shapeCast S8x16x128x3 (m ((c : Thread nD τ).loc main_arg0)) shapeCasts_S8x2048x3_S8x16x128x3)
        slices_S8x16x128x3_S8x16x128x1_0_0_0_2) shapeCasts_S8x16x128x1_S8x16x128 := by
  rw [← W1_arg0 m c]
  show StableHlo.after hostOps1 _ (Proc.devRef .tc main_v14) = _
  after_results
  rfl

/-- From the launch memory: the farthest gap over the three coordinate arrays is Spec's over the adv array. -/
theorem far_of_launch (c : Dev nD) (b : Fin 8) (a : Fin 16) :
    farOf (E2 m c main_v10) (E2 m c main_v12) (E2 m c main_v14) b a
      = Cert.Spec.farthest (m ((c : Thread nD τ).loc main_arg0)) b a := by
  unfold farOf Cert.Spec.farthest Cert.Spec.sqGap Cert.Spec.gap
  rw [E2_v10, E2_v12, E2_v14]
  simp only [coord_read (m ((c : Thread nD τ).loc main_arg0)) 0 ![0, 0, 0, 0] rfl,
    coord_read (m ((c : Thread nD τ).loc main_arg0)) 1 ![0, 0, 0, 1] rfl,
    coord_read (m ((c : Thread nD τ).loc main_arg0)) 2 ![0, 0, 0, 2] rfl]

end Launch

end Cert.FarValue
end
-- ==== Proof.RefSide.lean ====
/-
  The reference program read as mathematics. Three statements:
  * its minimum-reduce is, index by index, the nearest squared distance of the shared specification (on real entries
    |a|² + |o|² − 2 a·o is Σ_d (a_d − o_d)², not negative, so the maximum with 0 keeps it; a fold of min from +∞ is an infimum);
  * its two maximum-reduces of the norms are the farthest gap (the root is monotone on the extended reals and keeps ⊥, so it
    moves out of both suprema, and the suprema over the two points of a pair commute);
  * the finiteness precondition says that every entry of the three arguments is a real number.
-/
import proofs.«126610_j24790551233439_2_alg».proof.Proof.Gen.ReferenceIdeal.Read
import proofs.«126610_j24790551233439_2_alg».proof.Proof.Gen.Pre_finite_inputs
import proofs.«126610_j24790551233439_2_alg».proof.Pre_finite_inputs
import proofs.«126610_j24790551233439_2_alg».proof.Proof.Spec
import Idealize.ShloMosaic.Lib.ValueIdx
import Idealize.ShloMosaic.Lib.Pipeline.Value
import Idealize.ShloMosaic.PureOps.Ideal.Laws
import Idealize.ShloMosaic.Lib.ReduceAll

noncomputable section

namespace Cert.RefSide

open Idealize.ShloMosaic Idealize.ShloMosaic.ValueIdx
open Cert.ReferenceIdeal Cert.ReferenceIdeal.Gen Cert.ReferenceIdeal.Read Cert.Spec

/-! ## Small facts about the extended reals -/

/-- The word of −∞ denotes the least extended real. -/
theorem ofBits_negInf : Ideal.ofBits .f32 0xFF800000#32 = (⊥ : EReal) := by simp [Ideal.ofBits, Ideal.ieee]

/-- The word of +∞ denotes the greatest extended real. -/
theorem ofBits_posInf : Ideal.ofBits .f32 0x7F800000#32 = (⊤ : EReal) := by simp [Ideal.ofBits, Ideal.ieee]

/-- The square root is monotone on all of the extended reals (negative arguments go to ⊥, the least value). -/
theorem sqrt_mono : Monotone Ideal.sqrt := by
  intro x y hxy
  induction x using EReal.rec with
  | bot => simp
  | top =>
    have hy : y = ⊤ := top_le_iff.mp hxy
    subst hy; exact le_rfl
  | coe r =>
    induction y using EReal.rec with
    | bot => simp at hxy
    | top => simp
    | coe s =>
      have hrs : r ≤ s := EReal.coe_le_coe_iff.mp hxy
      simp only [Ideal.sqrt_coe]
      split_ifs with h1 h2
      · exact le_rfl
      · exact bot_le
      · exfalso; linarith
      · exact EReal.coe_le_coe_iff.mpr (Real.sqrt_le_sqrt hrs)

/-- The square root of a supremum over a finite family is the supremum of the square roots. -/
theorem sqrt_sup {ι : Type} (s : Finset ι) (f : ι → EReal) : Ideal.sqrt (s.sup f) = s.sup fun i => Ideal.sqrt (f i) :=
  Finset.comp_sup_eq_sup_comp_of_is_total Ideal.sqrt sqrt_mono Ideal.sqrt_bot

/-! ## A maximum-reduce over one axis from −∞ is a supremum -/

theorem hostReduce_max_sup {s t : Shape} {a : Fin s.rank} (x : s.Idx → EReal) (h' : s.ReducesTo [a] t) (h : s.Reduces [a] t) (j : t.Idx) :
    Host.reduce (FloatOps.maximumf (F := Ideal) (φ := .f32)) x (constant (F := Ideal) S_ .f32 0xFF800000#32) h' h_S_ j
      = Finset.univ.sup fun k : Fin (s.size a) => x (h.lift j k) := by
  rw [Host.reduce_eq_fold_single (FloatOps.maximumf (F := Ideal) (φ := .f32)) x _ h' h h_S_ j]
  show Finset.fold max (Ideal.ofBits .f32 0xFF800000#32) (x ∘ h.lift j) Finset.univ = _
  rw [ofBits_negInf]
  rfl

/-! ## The farthest gap -/

/-- The reshape of the 2048 rows of a batch into 16 clusters of 128 sends (a, p) to row a·128 + p: read through the
    two broadcasts and the reshape, entry (b, a, p, q, d) of the first operand of the difference is the point q. -/
theorem idx_q (b : Fin 8) (a : Fin 16) (p q : Fin 128) (d : Fin 3) :
    idx_main_v22 (idx_main_v23 (idx_main_v25 (ix5 b a p q d))) = ix3 b (row a q) d := by
  funext c
  apply Fin.ext
  have hb := b.isLt; have ha := a.isLt; have hq := q.isLt; have hd := d.isLt
  match c with
  | ⟨0, _⟩ => show ((((b.val * 16 + a.val) * 128 + q.val) * 3 + d.val) / 6144) = b.val; omega
  | ⟨1, _⟩ => show ((((b.val * 16 + a.val) * 128 + q.val) * 3 + d.val) / 3 % 2048) = a.val * 128 + q.val; omega
  | ⟨2, _⟩ => show ((((b.val * 16 + a.val) * 128 + q.val) * 3 + d.val) % 3) = d.val; omega

/-- … and of the second operand the point p. -/
theorem idx_p (b : Fin 8) (a : Fin 16) (p q : Fin 128) (d : Fin 3) :
    idx_main_v22 (idx_main_v24 (idx_main_v26 (ix5 b a p q d))) = ix3 b (row a p) d := by
  funext c
  apply Fin.ext
  have hb := b.isLt; have ha := a.isLt; have hp := p.isLt; have hd := d.isLt
  match c with
  | ⟨0, _⟩ => show ((((b.val * 16 + a.val) * 128 + p.val) * 3 + d.val) / 6144) = b.val; omega
  | ⟨1, _⟩ => show ((((b.val * 16 + a.val) * 128 + p.val) * 3 + d.val) / 3 % 2048) = a.val * 128 + p.val; omega
  | ⟨2, _⟩ => show ((((b.val * 16 + a.val) * 128 + p.val) * 3 + d.val) % 3) = d.val; omega

/-- Entry (b, a, p, q, d) of the array that is squared and summed is the gap of Spec. -/
theorem v29_at (A : (⟨S8x2048x3, .f32⟩ : BufTy).Contents (Elt Ideal)) (b : Fin 8) (a : Fin 16) (p q : Fin 128) (d : Fin 3) :
    val_main_v29 (F := Ideal) A (ix5 b a p q d) = gap A b a p q d := by
  rw [val_main_v29_apply, val_main_v27_apply, val_main_v25_apply, val_main_v23_apply, val_main_v22_apply,
    val_main_v26_apply, val_main_v24_apply, val_main_v22_apply, val_main_v28_apply, val_main_cst_8_apply,
    idx_q, idx_p]
  rfl

/-- The coordinate d put back into (b, a, p, q). -/
theorem idx_call0 (b : Fin 8) (a : Fin 16) (p q : Fin 128) (d : Fin 3) :
    idx_main_call0_v1 (ix4 b a p q) d = ix5 b a p q d := by
  funext c
  apply Fin.ext
  match c with
  | ⟨0, _⟩ => rfl
  | ⟨1, _⟩ => rfl
  | ⟨2, _⟩ => rfl
  | ⟨3, _⟩ => rfl
  | ⟨4, _⟩ => rfl

/-- Entry (b, a, p, q) of the array of norms is the root of the squared gap. -/
theorem v30_at (A : (⟨S8x2048x3, .f32⟩ : BufTy).Contents (Elt Ideal)) (b : Fin 8) (a : Fin 16) (p q : Fin 128) :
    val_main_v30 (F := Ideal) A (ix4 b a p q) = Ideal.sqrt (sqGap A b a p q) := by
  rw [val_main_v30_apply, Ideal.hostUnary_sqrt_def, val_main_call0_v1_apply, val_main_call0_cst_apply, Fin.sum_univ_three]
  simp only [val_main_call0_v0_apply, idx_call0, v29_at, Ideal.ofBits_def, Ideal.ofBits_zero_f32, zero_add, Ideal.mulf_def]
  rfl

/-- The point axis p put back into (b, a, q): (b, a, p, q). -/
theorem lift_p (h : S8x16x128x128.Reduces [2] S8x16x128) (b : Fin 8) (a : Fin 16) (q : Fin 128) (p : Fin 128) :
    h.lift (ix3 b a q) p = ix4 b a p q := by
  funext c
  apply Fin.ext
  match c with
  | ⟨0, _⟩ => rfl
  | ⟨1, _⟩ => rfl
  | ⟨2, _⟩ => rfl
  | ⟨3, _⟩ => rfl

/-- The point axis q put back into (b, a): (b, a, q). -/
theorem lift_q (h : S8x16x128.Reduces [2] S8x16) (b : Fin 8) (a : Fin 16) (q : Fin 128) :
    h.lift (ix2 b a) q = ix3 b a q := by
  funext c
  apply Fin.ext
  match c with
  | ⟨0, _⟩ => rfl
  | ⟨1, _⟩ => rfl
  | ⟨2, _⟩ => rfl

/-- The first maximum: over the subtracted point p. -/
theorem v31_at (A : (⟨S8x2048x3, .f32⟩ : BufTy).Contents (Elt Ideal)) (b : Fin 8) (a : Fin 16) (q : Fin 128) :
    val_main_v31 (F := Ideal) A (ix3 b a q) = Finset.univ.sup fun p : Fin 128 => Ideal.sqrt (sqGap A b a p q) := by
  have h : S8x16x128x128.Reduces [2] S8x16x128 := by decide
  unfold val_main_v31
  refine (hostReduce_max_sup (val_main_v30 (F := Ideal) A) reducesTo_S8x16x128x128_S8x16x128_d2 h (ix3 b a q)).trans ?_
  show (Finset.univ.sup fun p : Fin 128 => val_main_v30 (F := Ideal) A (h.lift (ix3 b a q) p)) = _
  exact Finset.sup_congr rfl fun p _ => by rw [lift_p, v30_at]

/-- The second maximum: over the remaining point q. -/
theorem v32_at (A : (⟨S8x2048x3, .f32⟩ : BufTy).Contents (Elt Ideal)) (b : Fin 8) (a : Fin 16) :
    val_main_v32 (F := Ideal) A (ix2 b a)
      = Finset.univ.sup fun q : Fin 128 => Finset.univ.sup fun p : Fin 128 => Ideal.sqrt (sqGap A b a p q) := by
  have h : S8x16x128.Reduces [2] S8x16 := by decide
  unfold val_main_v32
  refine (hostReduce_max_sup (val_main_v31 (F := Ideal) A) reducesTo_S8x16x128_S8x16_d2 h (ix2 b a)).trans ?_
  show (Finset.univ.sup fun q : Fin 128 => val_main_v31 (F := Ideal) A (h.lift (ix2 b a) q)) = _
  exact Finset.sup_congr rfl fun q _ => by rw [lift_q, v31_at]

/-- The reference's farthest gaps are Spec's: the root is monotone and keeps ⊥, so it moves out of both suprema, and
    the two suprema commute. -/
theorem ref_farthest (A : (⟨Cert.ReferenceIdeal.S8x2048x3, .f32⟩ : BufTy).Contents (Elt Ideal))
    (hA : Cert.Spec.AllReal (S := Cert.Spec.SAdv) A) :
    Cert.ReferenceIdeal.Read.val_main_v32 (F := Ideal) A = Cert.Spec.farthestArr A := by
  funext j
  obtain ⟨b, a, rfl⟩ : ∃ (b : Fin 8) (a : Fin 16), j = ix2 b a := ⟨j 0, j 1, eq_ix2 j⟩
  rw [v32_at]
  show _ = Ideal.sqrt (Finset.univ.sup fun p : Fin 128 => Finset.univ.sup fun q : Fin 128 => sqGap A b a p q)
  rw [sqrt_sup]
  simp only [sqrt_sup]
  exact Finset.sup_comm _ _ _

/-! ## The nearest squared distance -/

/-- A minimum-reduce over one axis from +∞ is an infimum. -/
theorem hostReduce_min_inf {s t : Shape} {a : Fin s.rank} (x : s.Idx → EReal) (h' : s.ReducesTo [a] t) (h : s.Reduces [a] t) (j : t.Idx) :
    Host.reduce (FloatOps.minimumf (F := Ideal) (φ := .f32)) x (constant (F := Ideal) S_ .f32 0x7F800000#32) h' h_S_ j
      = Finset.univ.inf fun k : Fin (s.size a) => x (h.lift j k) := by
  rw [Host.reduce_eq_fold_single (FloatOps.minimumf (F := Ideal) (φ := .f32)) x _ h' h h_S_ j]
  show Finset.fold min (Ideal.ofBits .f32 0x7F800000#32) (x ∘ h.lift j) Finset.univ = _
  rw [ofBits_posInf]
  rfl

/-- The word of 2.0 denotes 2. -/
theorem ofBits_two : Ideal.ofBits .f32 0x40000000#32 = ((2 : ℝ) : EReal) := by
  simp [Ideal.ofBits, Ideal.ieee]
  rw [← EReal.coe_mul, EReal.coe_eq_coe_iff]
  norm_num

/-- Through the two broadcasts, entry (b, k, m) of the adv squared norms reads adv point k. -/
theorem idx_a2 (b : Fin 8) (k : Fin 2048) (m : Fin 8192) (d : Fin 3) :
    idx_main_v1 (idx_main_v5 (idx_main_v7 (ix3 b k m))) d = ix3 b k d := by
  funext c
  apply Fin.ext
  match c with
  | ⟨0, _⟩ => rfl
  | ⟨1, _⟩ => rfl
  | ⟨2, _⟩ => rfl

/-- … and of the ori squared norms ori point m. -/
theorem idx_o2 (b : Fin 8) (k : Fin 2048) (m : Fin 8192) (d : Fin 3) :
    idx_main_v3 (idx_main_v6 (idx_main_v8 (ix3 b k m))) d = ix3 b m d := by
  funext c
  apply Fin.ext
  match c with
  | ⟨0, _⟩ => rfl
  | ⟨1, _⟩ => rfl
  | ⟨2, _⟩ => rfl

/-- The contraction reads adv point k on the left … -/
theorem lidx_at (b : Fin 8) (k : Fin 2048) (m : Fin 8192) (d : Fin 3) :
    lidx_main_v4 (ix3 b k m) d = ix3 b k d := by
  funext c
  apply Fin.ext
  match c with
  | ⟨0, _⟩ => rfl
  | ⟨1, _⟩ => rfl
  | ⟨2, _⟩ => rfl

/-- … and ori point m on the right. -/
theorem ridx_at (b : Fin 8) (k : Fin 2048) (m : Fin 8192) (d : Fin 3) :
    ridx_main_v4 (ix3 b k m) d = ix3 b m d := by
  funext c
  apply Fin.ext
  match c with
  | ⟨0, _⟩ => rfl
  | ⟨1, _⟩ => rfl
  | ⟨2, _⟩ => rfl

/-- On real entries |a|² + |o|² − 2 a·o is Σ_d (a_d − o_d)², which is not negative, so the maximum with 0 keeps it. -/
theorem v14_at (A : (⟨S8x2048x3, .f32⟩ : BufTy).Contents (Elt Ideal)) (O : (⟨S8x8192x3, .f32⟩ : BufTy).Contents (Elt Ideal))
    (hA : AllReal (S := SAdv) A) (hO : AllReal (S := SOri) O) (b : Fin 8) (k : Fin 2048) (m : Fin 8192) :
    val_main_v14 (F := Ideal) A O (ix3 b k m) = sqDist A O b k m := by
  obtain ⟨a0, ha0⟩ := hA (ix3 b k 0)
  obtain ⟨a1, ha1⟩ := hA (ix3 b k 1)
  obtain ⟨a2, ha2⟩ := hA (ix3 b k 2)
  obtain ⟨o0, ho0⟩ := hO (ix3 b m 0)
  obtain ⟨o1, ho1⟩ := hO (ix3 b m 1)
  obtain ⟨o2, ho2⟩ := hO (ix3 b m 2)
  rw [val_main_v14_apply, val_main_v12_apply, val_main_v9_apply, val_main_v7_apply, val_main_v5_apply, val_main_v1_apply,
    val_main_v8_apply, val_main_v6_apply, val_main_v3_apply, val_main_v11_apply, val_main_v10_apply, val_main_cst_1_apply,
    val_main_v4_apply, val_main_v13_apply, val_main_cst_2_apply, val_main_cst_apply, val_main_cst_0_apply]
  simp only [Fin.sum_univ_three, val_main_v0_apply, val_main_v2_apply, idx_a2, idx_o2, lidx_at, ridx_at,
    Ideal.ofBits_def, Ideal.ofBits_zero_f32, ofBits_two, Ideal.mulf_def, Ideal.addf_def, Ideal.subf_def, Ideal.maximumf_def, zero_add]
  unfold sqDist diff
  rw [ha0, ha1, ha2, ho0, ho1, ho2]
  simp only [← EReal.coe_mul, ← EReal.coe_add, ← EReal.coe_sub]
  have key : a0 * a0 + a1 * a1 + a2 * a2 + (o0 * o0 + o1 * o1 + o2 * o2) - 2 * (a0 * o0 + a1 * o1 + a2 * o2)
      = (a0 - o0) * (a0 - o0) + (a1 - o1) * (a1 - o1) + (a2 - o2) * (a2 - o2) := by ring
  rw [key]
  refine max_eq_left ?_
  rw [← EReal.coe_zero, EReal.coe_le_coe_iff]
  exact add_nonneg (add_nonneg (mul_self_nonneg _) (mul_self_nonneg _)) (mul_self_nonneg _)

/-- The ori point m put back into (b, k): (b, k, m). -/
theorem lift_m (h : S8x2048x8192.Reduces [2] S8x2048) (b : Fin 8) (k : Fin 2048) (m : Fin 8192) :
    h.lift (ix2 b k) m = ix3 b k m := by
  funext c
  apply Fin.ext
  match c with
  | ⟨0, _⟩ => rfl
  | ⟨1, _⟩ => rfl
  | ⟨2, _⟩ => rfl

/-- The reference's nearest squared distances are Spec's. -/
theorem ref_nearest (A : (⟨Cert.ReferenceIdeal.S8x2048x3, .f32⟩ : BufTy).Contents (Elt Ideal))
    (O : (⟨Cert.ReferenceIdeal.S8x8192x3, .f32⟩ : BufTy).Contents (Elt Ideal))
    (hA : Cert.Spec.AllReal (S := Cert.Spec.SAdv) A) (hO : Cert.Spec.AllReal (S := Cert.Spec.SOri) O) :
    Cert.ReferenceIdeal.Read.val_main_v15 (F := Ideal) A O = Cert.Spec.nearestArr A O := by
  funext j
  obtain ⟨b, k, rfl⟩ : ∃ (b : Fin 8) (k : Fin 2048), j = ix2 b k := ⟨j 0, j 1, eq_ix2 j⟩
  have h : S8x2048x8192.Reduces [2] S8x2048 := by decide
  unfold val_main_v15
  refine (hostReduce_min_inf (val_main_v14 (F := Ideal) A O) reducesTo_S8x2048x8192_S8x2048_d2 h (ix2 b k)).trans ?_
  show (Finset.univ.inf fun m : Fin 8192 => val_main_v14 (F := Ideal) A O (h.lift (ix2 b k) m))
    = Finset.univ.inf fun m : Fin 8192 => sqDist A O b k m
  exact Finset.inf_congr rfl fun m _ => by rw [lift_m, v14_at A O hA hO]

/-! ## Finiteness: the precondition says every entry is a real number -/

instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | top => simp [Ideal.cmp] at h
  | coe r => exact ⟨r, rfl⟩

/-- The scalar +∞ broadcast to any shape reads +∞ everywhere. -/
theorem bcast_inf (S : Shape) (hb : Cert.Pre_finite_inputs.S_.BroadcastsInDim S (![] : Fin 0 → Fin S.rank)) (i : S.Idx) :
    broadcastInDim S ![] hb (constant (F := Ideal) Cert.Pre_finite_inputs.S_ .f32 0x7F800000#32) i
      = Ideal.ofBits .f32 0x7F800000#32 :=
  broadcastInDim_apply _ hb _ i (fun a => a.elim0) (fun a => a.elim0)

/-- An array all of whose entries compare below +∞ in absolute value has only real entries. -/
theorem real_of_all {S : Shape} (X : FVec Ideal S .f32) (hb : Cert.Pre_finite_inputs.S_.BroadcastsInDim S (![] : Fin 0 → Fin S.rank))
    (i : S.Idx)
    (e : cmpf .olt (Host.absf X) (broadcastInDim S ![] hb (constant (F := Ideal) Cert.Pre_finite_inputs.S_ .f32 0x7F800000#32)) i = 1#1) :
    ∃ r : ℝ, X i = (r : EReal) := by
  rw [cmpf_apply, bcast_inf] at e
  exact real_of_abs_lt (X i) e

/-- The precondition (every |x| compares below +∞) gives: every entry of the three arguments is a real number. -/
theorem allReal_of_pre [Cert.Pre_finite_inputs.Facts]
    (A : FVec Ideal Cert.Pre_finite_inputs.S8x2048x3 .f32) (O : FVec Ideal Cert.Pre_finite_inputs.S8x8192x3 .f32)
    (W : FVec Ideal Cert.Pre_finite_inputs.S8 .f32)
    (h : Cert.Pre_finite_inputs.fn (F := Ideal) A O W = (fun _ => 1#1)) :
    Cert.Spec.AllReal (S := Cert.Spec.SAdv) A ∧ Cert.Spec.AllReal (S := Cert.Spec.SOri) O ∧ (∀ i, ∃ r : ℝ, W i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_all A _ i (Host.reduce_andi_all _ _ _ _ _ h1 i)
  · exact real_of_all O _ i (Host.reduce_andi_all _ _ _ _ _ h2 i)
  · exact real_of_all W _ i (Host.reduce_andi_all _ _ _ _ _ h3 i)

end Cert.RefSide
end
-- ==== Proof.Bridge.lean ====
/-
  The bridge between the two idealized programs, over the extended reals.

  Kernel side: the run of @main ends with every buffer at the last boundary's contents; its result is the common
  averaging `tail` of what the two regions leave. The first region leaves, in its [8,1,2048] array, the nearest squared
  distance of every adv point (the running minima over the sixteen tiles of a batch, reduced along the lanes at the last
  tile); the second leaves, in its [8,1,16] array, the farthest gap of every cluster. Dropping the unit middle axis, the
  two are the specification's `nearestArr` and `farthestArr` of the launch contents of the two point arrays.
  Reference side: its generated run ends at its operations' composed term, which is the same `tail` of its own
  min-reduce and double max-reduce; on real entries those are `nearestArr` (the expansion a² + o² − 2a·o of a sum of
  squares, clamped below at 0, is the sum of squares) and `farthestArr` (the square root is monotone, so the greatest of
  the roots is the root of the greatest).
-/
import proofs.«126610_j24790551233439_2_alg».proof.Defs
import proofs.«126610_j24790551233439_2_alg».proof.Proof.KI.Tail
import proofs.«126610_j24790551233439_2_alg».proof.Proof.NearValue
import proofs.«126610_j24790551233439_2_alg».proof.Proof.FarValue
import proofs.«126610_j24790551233439_2_alg».proof.Proof.RefSide
import proofs.«126610_j24790551233439_2_alg».proof.Proof.Gen.ReferenceIdeal.Read
import proofs.«126610_j24790551233439_2_alg».proof.Proof.Spec
import Idealize.ShloMosaic.Lib.Pipeline.Value
import Idealize.ShloMosaic.Lib.ValueIdx

noncomputable section

namespace Cert.Bridge

open Idealize.ShloMosaic Idealize.ShloMosaic.TcCoe Idealize.ShloMosaic.ValueIdx Idealize.SL.Sem
open Cert.KernelIdeal Cert.KernelIdeal.Gen Cert.KernelIdeal.Fr

/-! ## Dropping a unit middle axis -/

/-- A reshape [a,1,b] → [a,b] read at (p, q) is the operand at (p, 0, q): the same row-major position. -/
theorem cast_mid {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p 0 q) := by
  refine shapeCast_apply x h (ix2 p q) (ix3 p 0 q) ?_
  rw [Shape.rowMajor_val_three, Shape.rowMajor_val_two]
  show (p.val * 1 + 0) * b + q.val = p.val * b + q.val
  rw [Nat.mul_one, Nat.add_zero]

/-- So an array [a,1,b] given by a function of its outer coordinates, reshaped to [a,b], is that function. -/
theorem cast_mid_fun {α : Type} {a b : ℕ} (f : Fin a → Fin b → α)
    (h : (⟨3, ![a, 1, b]⟩ : Shape).ShapeCasts ⟨2, ![a, b]⟩) :
    shapeCast ⟨2, ![a, b]⟩ (fun i : (⟨3, ![a, 1, b]⟩ : Shape).Idx => f (i 0) (i 2)) h = fun j => f (j 0) (j 1) := by
  funext j
  rw [eq_ix2 j]
  exact cast_mid _ h (j 0) (j 1)

/-! ## The kernel program's result -/

variable (m : (ℓ : Loc nD τ sig) → Buf (Elt Ideal) ℓ) (ρ : Dev nD → PrngReg)

/-- The first region's array, reshaped, is the nearest squared distances of the launch contents. -/
theorem near_eq (c : Dev nD) :
    shapeCast S8x2048 (W1 m c (Proc.devRef .tc main_v0)) shapeCasts_S8x1x2048_S8x2048
      = Cert.Spec.nearestArr (m ((c : Thread nD τ).loc main_arg0)) (m ((c : Thread nD τ).loc main_arg1)) := by
  rw [W1_arr m c 2, Cert.NearValue.final0 (E0 m) c]
  exact cast_mid_fun (fun b k => Cert.Spec.nearest (m ((c : Thread nD τ).loc main_arg0)) (m ((c : Thread nD τ).loc main_arg1)) b k) _

/-- The second region's array, reshaped, is the farthest gaps of the launch contents. -/
theorem far_eq (c : Dev nD) :
    shapeCast S8x16 (W3 m c (Proc.devRef .tc main_v15)) shapeCasts_S8x1x16_S8x16
      = Cert.Spec.farthestArr (m ((c : Thread nD τ).loc main_arg0)) := by
  rw [W3_arr m c 3, Cert.FarValue.final1 (E2 m) c]
  refine Eq.trans (congrArg (fun x : S8x1x16.Idx → EReal => shapeCast S8x16 x shapeCasts_S8x1x16_S8x16)
    (funext fun i : S8x1x16.Idx => Cert.FarValue.far_of_launch m c (i 0) (i 2))) ?_
  exact cast_mid_fun (fun b a => Cert.Spec.farthest (m ((c : Thread nD τ).loc main_arg0)) b a) _

/-- What both programs end with, as a function of the launch contents. -/
def answer (A : FVec Ideal S8x2048x3 .f32) (O : FVec Ideal S8x8192x3 .f32) (w : FVec Ideal S8 .f32) : FVec Ideal S_ .f32 :=
  tail (F := Ideal) (Cert.Spec.nearestArr A O) (Cert.Spec.farthestArr A) w

/-- THE KERNEL PROGRAM'S RUN, read: the result at `answer` of the launch contents, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v22) = answer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v22 (by decide))).trans ((W4_result m c).trans (by rw [near_eq m c, far_eq m c]; rfl)),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-! ## The reference's result -/

/-- The reference's composed term is the same averaging of its own two reductions. -/
theorem ref_tail (A : FVec Ideal S8x2048x3 .f32) (O : FVec Ideal S8x8192x3 .f32) (w : FVec Ideal S8 .f32) :
    Cert.ReferenceIdeal.Read.val_main_v38 (F := Ideal) A O w
      = tail (F := Ideal) (Cert.ReferenceIdeal.Read.val_main_v15 (F := Ideal) A O) (Cert.ReferenceIdeal.Read.val_main_v32 (F := Ideal) A) w := rfl

/-- On real entries the reference ends at `answer` too. -/
theorem ref_answer (A : FVec Ideal S8x2048x3 .f32) (O : FVec Ideal S8x8192x3 .f32) (w : FVec Ideal S8 .f32)
    (hA : Cert.Spec.AllReal (S := Cert.Spec.SAdv) A) (hO : Cert.Spec.AllReal (S := Cert.Spec.SOri) O) :
    Cert.ReferenceIdeal.Read.val_main_v38 (F := Ideal) A O w = answer A O w := by
  rw [ref_tail, Cert.RefSide.ref_nearest A O hA hO, Cert.RefSide.ref_farthest A hA]
  rfl

end Cert.Bridge

end
-- ==== Proof.lean ====
/-
  The certificate of one pair of programs: a Pallas implementation of a point-cloud loss against its jnp reference.

  Both compute, from adv points A (8 batches of 2048 points), ori points O (8 batches of 8192 points) and weights w,
      mean_b ( w_b · Σ_a far(b, a) )  +  0.1 · mean_b ( w_b · mean_k near(b, k) ),
  where near(b, k) is the least squared distance from adv point k to the ori points of batch b, and far(b, a) is, for
  cluster a (128 consecutive adv points), the greatest over ordered pairs (p, q) of ‖x_q − x_p + ε‖.

  The kernel program runs two grid kernels. The first keeps, per adv point, 128 running minima over tiles of 512 ori
  points (each squared distance written (dx² + dy²) + dz²), reset at a batch's first tile and reduced along the lanes at
  its last; the second computes per cluster the greatest squared gap and takes ONE square root. The reference expands the
  squared distance as a² + o² − 2 a·o clamped below at 0 and takes the minimum over all ori points at once, and takes the
  greatest of the 128 × 128 roots. Over the extended reals, at finite inputs, the expansion of a sum of squares is the sum
  of squares and is non-negative, a minimum does not depend on how its terms are grouped, and the square root is monotone:
  the two programs end with the same averaging of the same two arrays.

  The three frames: each program terminates from any memory, faults nowhere, and leaves its argument arrays as launched
  (the kernel program's from its whole run, at the word-level and at the ideal instance; the reference's from its
  generated run). The idealization rewrote no operation, so `preserves` is `True`.
-/
import proofs.«126610_j24790551233439_2_alg».proof.Defs
import proofs.«126610_j24790551233439_2_alg».proof.Proof.Gen.Kernel
import proofs.«126610_j24790551233439_2_alg».proof.Proof.Gen.KernelIdeal
import proofs.«126610_j24790551233439_2_alg».proof.Proof.Gen.ReferenceIdeal
import proofs.«126610_j24790551233439_2_alg».proof.Proof.Gen.ReferenceIdeal.Run
import proofs.«126610_j24790551233439_2_alg».proof.Proof.Gen.ReferenceIdeal.Read
import proofs.«126610_j24790551233439_2_alg».proof.Proof.Gen.Pre_finite_inputs
import proofs.«126610_j24790551233439_2_alg».proof.Proof.K.Run
import proofs.«126610_j24790551233439_2_alg».proof.Proof.KI.Run
import proofs.«126610_j24790551233439_2_alg».proof.Proof.Bridge
import proofs.«126610_j24790551233439_2_alg».proof.Proof.RefSide
import Idealize.ShloMosaic.Adequacy
import Idealize.ShloMosaic.Init

noncomputable section

namespace Cert.Proof

open Idealize.ShloMosaic Idealize.SL.Sem

/-- The word-level kernel program: its run, read at the argument arrays. -/
theorem frame_k : Cert.frame_Kernel := fun m ρ _ => Cert.Kernel.Fr.frame (F := Bits) m ρ

/-- The idealized kernel program: the same run at the extended reals. -/
theorem frame_ki : Cert.frame_KernelIdeal := fun m ρ _ => Cert.KernelIdeal.Fr.frame (F := Ideal) m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments, at finite inputs, both programs end at the same extended real: the common
    averaging of the nearest squared distances and the farthest gaps of the launch contents. -/
theorem algebraic : Cert.algebraic_KernelIdeal_ReferenceIdeal := by
  intro m ρ m' ρ' hpre hagree
  refine ⟨fun c => Cert.Bridge.answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hA, hO, -⟩ := Cert.RefSide.allReal_of_pre _ _ _ (hpre c)
  rw [Cert.ReferenceIdeal.Read.val_main_v38_eq, (hagree c).1, (hagree c).2.1, (hagree c).2.2]
  exact Cert.Bridge.ref_answer _ _ _ hA hO

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
